-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  IdealRules.truncf_extf.Statement Cert.KernelIdeal.S4096x2 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x30 : Shape := ⟨2, ![1048576, 30]⟩
abbrev S24x30 : Shape := ⟨2, ![24, 30]⟩
abbrev S24 : Shape := ⟨1, ![24]⟩
abbrev S19x24 : Shape := ⟨2, ![19, 24]⟩
abbrev S19 : Shape := ⟨1, ![19]⟩
abbrev S14x19 : Shape := ⟨2, ![14, 19]⟩
abbrev S14 : Shape := ⟨1, ![14]⟩
abbrev S10x14 : Shape := ⟨2, ![10, 14]⟩
abbrev S10 : Shape := ⟨1, ![10]⟩
abbrev S6x10 : Shape := ⟨2, ![6, 10]⟩
abbrev S6 : Shape := ⟨1, ![6]⟩
abbrev S2x6 : Shape := ⟨2, ![2, 6]⟩
abbrev S2 : Shape := ⟨1, ![2]⟩
abbrev S1x2 : Shape := ⟨2, ![1, 2]⟩
abbrev S1 : Shape := ⟨1, ![1]⟩
abbrev S_ : Shape := ⟨0, ![]⟩

class Facts : Prop where
  bcast_S_S1048576x30 : S_.BroadcastsInDim S1048576x30 (![] : Fin 0 → Fin S1048576x30.rank)
  reducesTo_S1048576x30_S_d0_1 : S1048576x30.ReducesTo [0, 1] S_
  h_S_ : 0 < S_.numel
  bcast_S_S24x30 : S_.BroadcastsInDim S24x30 (![] : Fin 0 → Fin S24x30.rank)
  reducesTo_S24x30_S_d0_1 : S24x30.ReducesTo [0, 1] S_
  bcast_S_S24 : S_.BroadcastsInDim S24 (![] : Fin 0 → Fin S24.rank)
  reducesTo_S24_S_d0 : S24.ReducesTo [0] S_
  bcast_S_S19x24 : S_.BroadcastsInDim S19x24 (![] : Fin 0 → Fin S19x24.rank)
  reducesTo_S19x24_S_d0_1 : S19x24.ReducesTo [0, 1] S_
  bcast_S_S19 : S_.BroadcastsInDim S19 (![] : Fin 0 → Fin S19.rank)
  reducesTo_S19_S_d0 : S19.ReducesTo [0] S_
  bcast_S_S14x19 : S_.BroadcastsInDim S14x19 (![] : Fin 0 → Fin S14x19.rank)
  reducesTo_S14x19_S_d0_1 : S14x19.ReducesTo [0, 1] S_
  bcast_S_S14 : S_.BroadcastsInDim S14 (![] : Fin 0 → Fin S14.rank)
  reducesTo_S14_S_d0 : S14.ReducesTo [0] S_
  bcast_S_S10x14 : S_.BroadcastsInDim S10x14 (![] : Fin 0 → Fin S10x14.rank)
  reducesTo_S10x14_S_d0_1 : S10x14.ReducesTo [0, 1] S_
  bcast_S_S10 : S_.BroadcastsInDim S10 (![] : Fin 0 → Fin S10.rank)
  reducesTo_S10_S_d0 : S10.ReducesTo [0] S_
  bcast_S_S6x10 : S_.BroadcastsInDim S6x10 (![] : Fin 0 → Fin S6x10.rank)
  reducesTo_S6x10_S_d0_1 : S6x10.ReducesTo [0, 1] S_
  bcast_S_S6 : S_.BroadcastsInDim S6 (![] : Fin 0 → Fin S6.rank)
  reducesTo_S6_S_d0 : S6.ReducesTo [0] S_
  bcast_S_S2x6 : S_.BroadcastsInDim S2x6 (![] : Fin 0 → Fin S2x6.rank)
  reducesTo_S2x6_S_d0_1 : S2x6.ReducesTo [0, 1] S_
  bcast_S_S2 : S_.BroadcastsInDim S2 (![] : Fin 0 → Fin S2.rank)
  reducesTo_S2_S_d0 : S2.ReducesTo [0] S_
  bcast_S_S1x2 : S_.BroadcastsInDim S1x2 (![] : Fin 0 → Fin S1x2.rank)
  reducesTo_S1x2_S_d0_1 : S1x2.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg11 : FVec F S2x6 .f32) (main_arg12 : FVec F S2 .f32) (main_arg13 : FVec F S1x2 .f32) (main_arg14 : FVec F S1 .f32) (main_v48 : IVec S_ 1) (main_v49 : FVec F S6 .f32) (main_v50 : FVec F S6 .f32) : IVec S_ 1 :=
  let main_v51 : IVec S6 1 := cmpf .olt main_v49 main_v50
  let main_c_19 : IVec S_ 1 := constantI S_ 1 1#1
  let main_v52 : IVec S_ 1 := (fun x v => Host.reduce IntOp.andi x v reducesTo_S6_S_d0 h_S_) main_v51 main_c_19
  let main_v53 : IVec S_ 1 := andi main_v48 main_v52
  let main_v54 : FVec F S2x6 .f32 := Host.absf main_arg11
  let main_cst_20 : FVec F S_ .f32 := constant S_ .f32 0x7F800000#32
  let main_v55 : FVec F S2x6 .f32 := broadcastInDim S2x6 ![] bcast_S_S2x6 main_cst_20
  let main_v56 : IVec S2x6 1 := cmpf .olt main_v54 main_v55
  let main_c_21 : IVec S_ 1 := constantI S_ 1 1#1
  let main_v57 : IVec S_ 1 := (fun x v => Host.reduce IntOp.andi x v reducesTo_S2x6_S_d0_1 h_S_) main_v56 main_c_21
  let main_v58 : IVec S_ 1 := andi main_v53 main_v57
  let main_v59 : FVec F S2 .f32 := Host.absf main_arg12
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  let main_v64 : FVec F S1x2 .f32 := Host.absf main_arg13
  let main_cst_24 : FVec F S_ .f32 := constant S_ .f32 0x7F800000#32
  let main_v65 : FVec F S1x2 .f32 := broadcastInDim S1x2 ![] bcast_S_S1x2 main_cst_24
  let main_v66 : IVec S1x2 1 := cmpf .olt main_v64 main_v65
  let main_c_25 : IVec S_ 1 := constantI S_ 1 1#1
  let main_v67 : IVec S_ 1 := (fun x v => Host.reduce IntOp.andi x v reducesTo_S1x2_S_d0_1 h_S_) main_v66 main_c_25
  fn_part4 (F := F) main_arg14 main_v63 main_v67

def fn_part2 {F : FTy → Type} [FloatOps F] (main_arg7 : FVec F S10x14 .f32) (main_arg8 : FVec F S10 .f32) (main_arg9 : FVec F S6x10 .f32) (main_arg10 : FVec F S6 .f32) (main_arg11 : FVec F S2x6 .f32) (main_arg12 : FVec F S2 .f32) (main_arg13 : FVec F S1x2 .f32) (main_arg14 : FVec F S1 .f32) (main_v33 : IVec S_ 1) : IVec S_ 1 :=
  let main_v34 : FVec F S10x14 .f32 := Host.absf main_arg7
  let main_cst_12 : FVec F S_ .f32 := constant S_ .f32 0x7F800000#32
  let main_v35 : FVec F S10x14 .f32 := broadcastInDim S10x14 ![] bcast_S_S10x14 main_cst_12
  let main_v36 : IVec S10x14 1 := cmpf .olt main_v34 main_v35
  let main_c_13 : IVec S_ 1 := constantI S_ 1 1#1
  let main_v37 : IVec S_ 1 := (fun x v => Host.reduce IntOp.andi x v reducesTo_S10x14_S_d0_1 h_S_) main_v36 main_c_13
  let main_v38 : IVec S_ 1 := andi main_v33 main_v37
  let main_v39 : FVec F S10 .f32 := Host.absf main_arg8
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  let main_v44 : FVec F S6x10 .f32 := Host.absf main_arg9
  let main_cst_16 : FVec F S_ .f32 := constant S_ .f32 0x7F800000#32
  let main_v45 : FVec F S6x10 .f32 := broadcastInDim S6x10 ![] bcast_S_S6x10 main_cst_16
  let main_v46 : IVec S6x10 1 := cmpf .olt main_v44 main_v45
  let main_c_17 : IVec S_ 1 := constantI S_ 1 1#1
  let main_v47 : IVec S_ 1 := (fun x v => Host.reduce IntOp.andi x v reducesTo_S6x10_S_d0_1 h_S_) main_v46 main_c_17
  let main_v48 : IVec S_ 1 := andi main_v43 main_v47
  let main_v49 : FVec F S6 .f32 := Host.absf main_arg10
  let main_cst_18 : FVec F S_ .f32 := constant S_ .f32 0x7F800000#32
  let main_v50 : FVec F S6 .f32 := broadcastInDim S6 ![] bcast_S_S6 main_cst_18
  fn_part3 (F := F) main_arg11 main_arg12 main_arg13 main_arg14 main_v48 main_v49 main_v50

def fn_part1 {F : FTy → Type} [FloatOps F] (main_arg4 : FVec F S19 .f32) (main_arg5 : FVec F S14x19 .f32) (main_arg6 : FVec F S14 .f32) (main_arg7 : FVec F S10x14 .f32) (main_arg8 : FVec F S10 .f32) (main_arg9 : FVec F S6x10 .f32) (main_arg10 : FVec F S6 .f32) (main_arg11 : FVec F S2x6 .f32) (main_arg12 : FVec F S2 .f32) (main_arg13 : FVec F S1x2 .f32) (main_arg14 : FVec F S1 .f32) (main_v13 : IVec S_ 1) (main_v16 : IVec S19x24 1) : IVec S_ 1 :=
  let main_c_5 : IVec S_ 1 := constantI S_ 1 1#1
  let main_v17 : IVec S_ 1 := (fun x v => Host.reduce IntOp.andi x v reducesTo_S19x24_S_d0_1 h_S_) main_v16 main_c_5
  let main_v18 : IVec S_ 1 := andi main_v13 main_v17
  let main_v19 : FVec F S19 .f32 := Host.absf main_arg4
  let main_cst_6 : FVec F S_ .f32 := constant S_ .f32 0x7F800000#32
  let main_v20 : FVec F S19 .f32 := broadcastInDim S19 ![] bcast_S_S19 main_cst_6
  let main_v21 : IVec S19 1 := cmpf .olt main_v19 main_v20
  let main_c_7 : IVec S_ 1 := constantI S_ 1 1#1
  let main_v22 : IVec S_ 1 := (fun x v => Host.reduce IntOp.andi x v reducesTo_S19_S_d0 h_S_) main_v21 main_c_7
  let main_v23 : IVec S_ 1 := andi main_v18 main_v22
  let main_v24 : FVec F S14x19 .f32 := Host.absf main_arg5
  let main_cst_8 : FVec F S_ .f32 := constant S_ .f32 0x7F800000#32
  let main_v25 : FVec F S14x19 .f32 := broadcastInDim S14x19 ![] bcast_S_S14x19 main_cst_8
  let main_v26 : IVec S14x19 1 := cmpf .olt main_v24 main_v25
  let main_c_9 : IVec S_ 1 := constantI S_ 1 1#1
  let main_v27 : IVec S_ 1 := (fun x v => Host.reduce IntOp.andi x v reducesTo_S14x19_S_d0_1 h_S_) main_v26 main_c_9
  let main_v28 : IVec S_ 1 := andi main_v23 main_v27
  let main_v29 : FVec F S14 .f32 := Host.absf main_arg6
  let main_cst_10 : FVec F S_ .f32 := constant S_ .f32 0x7F800000#32
  let main_v30 : FVec F S14 .f32 := broadcastInDim S14 ![] bcast_S_S14 main_cst_10
  let main_v31 : IVec S14 1 := cmpf .olt main_v29 main_v30
  let main_c_11 : IVec S_ 1 := constantI S_ 1 1#1
  let main_v32 : IVec S_ 1 := (fun x v => Host.reduce IntOp.andi x v reducesTo_S14_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S1048576x30 .f32) (main_arg1 : FVec F S24x30 .f32) (main_arg2 : FVec F S24 .f32) (main_arg3 : FVec F S19x24 .f32) (main_arg4 : FVec F S19 .f32) (main_arg5 : FVec F S14x19 .f32) (main_arg6 : FVec F S14 .f32) (main_arg7 : FVec F S10x14 .f32) (main_arg8 : FVec F S10 .f32) (main_arg9 : FVec F S6x10 .f32) (main_arg10 : FVec F S6 .f32) (main_arg11 : FVec F S2x6 .f32) (main_arg12 : FVec F S2 .f32) (main_arg13 : FVec F S1x2 .f32) (main_arg14 : FVec F S1 .f32) : IVec S_ 1 :=
  let main_v0 : FVec F S1048576x30 .f32 := Host.absf main_arg0
  let main_cst : FVec F S_ .f32 := constant S_ .f32 0x7F800000#32
  let main_v1 : FVec F S1048576x30 .f32 := broadcastInDim S1048576x30 ![] bcast_S_S1048576x30 main_cst
  let main_v2 : IVec S1048576x30 1 := cmpf .olt main_v0 main_v1
  let main_c : IVec S_ 1 := constantI S_ 1 1#1
  let main_v3 : IVec S_ 1 := (fun x v => Host.reduce IntOp.andi x v reducesTo_S1048576x30_S_d0_1 h_S_) main_v2 main_c
  let main_v4 : FVec F S24x30 .f32 := Host.absf main_arg1
  let main_cst_0 : FVec F S_ .f32 := constant S_ .f32 0x7F800000#32
  let main_v5 : FVec F S24x30 .f32 := broadcastInDim S24x30 ![] bcast_S_S24x30 main_cst_0
  let main_v6 : IVec S24x30 1 := cmpf .olt main_v4 main_v5
  let main_c_1 : IVec S_ 1 := constantI S_ 1 1#1
  let main_v7 : IVec S_ 1 := (fun x v => Host.reduce IntOp.andi x v reducesTo_S24x30_S_d0_1 h_S_) main_v6 main_c_1
  let main_v8 : IVec S_ 1 := andi main_v3 main_v7
  let main_v9 : FVec F S24 .f32 := Host.absf main_arg2
  let main_cst_2 : FVec F S_ .f32 := constant S_ .f32 0x7F800000#32
  let main_v10 : FVec F S24 .f32 := broadcastInDim S24 ![] bcast_S_S24 main_cst_2
  let main_v11 : IVec S24 1 := cmpf .olt main_v9 main_v10
  let main_c_3 : IVec S_ 1 := constantI S_ 1 1#1
  let main_v12 : IVec S_ 1 := (fun x v => Host.reduce IntOp.andi x v reducesTo_S24_S_d0 h_S_) main_v11 main_c_3
  let main_v13 : IVec S_ 1 := andi main_v8 main_v12
  let main_v14 : FVec F S19x24 .f32 := Host.absf main_arg3
  let main_cst_4 : FVec F S_ .f32 := constant S_ .f32 0x7F800000#32
  let main_v15 : FVec F S19x24 .f32 := broadcastInDim S19x24 ![] bcast_S_S19x24 main_cst_4
  let main_v16 : IVec S19x24 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S1048576x30 : Shape := ⟨2, ![1048576, 30]⟩
abbrev S24x30 : Shape := ⟨2, ![24, 30]⟩
abbrev S24 : Shape := ⟨1, ![24]⟩
abbrev S19x24 : Shape := ⟨2, ![19, 24]⟩
abbrev S19 : Shape := ⟨1, ![19]⟩
abbrev S14x19 : Shape := ⟨2, ![14, 19]⟩
abbrev S14 : Shape := ⟨1, ![14]⟩
abbrev S10x14 : Shape := ⟨2, ![10, 14]⟩
abbrev S10 : Shape := ⟨1, ![10]⟩
abbrev S6x10 : Shape := ⟨2, ![6, 10]⟩
abbrev S6 : Shape := ⟨1, ![6]⟩
abbrev S2x6 : Shape := ⟨2, ![2, 6]⟩
abbrev S2 : Shape := ⟨1, ![2]⟩
abbrev S1x2 : Shape := ⟨2, ![1, 2]⟩
abbrev S1 : Shape := ⟨1, ![1]⟩
abbrev S1048576x1 : Shape := ⟨2, ![1048576, 1]⟩
abbrev S4096x30 : Shape := ⟨2, ![4096, 30]⟩
abbrev S4096x1 : Shape := ⟨2, ![4096, 1]⟩
abbrev S4096x24 : Shape := ⟨2, ![4096, 24]⟩
abbrev S1x24 : Shape := ⟨2, ![1, 24]⟩
abbrev S4096x19 : Shape := ⟨2, ![4096, 19]⟩
abbrev S1x19 : Shape := ⟨2, ![1, 19]⟩
abbrev S4096x14 : Shape := ⟨2, ![4096, 14]⟩
abbrev S1x14 : Shape := ⟨2, ![1, 14]⟩
abbrev S4096x10 : Shape := ⟨2, ![4096, 10]⟩
abbrev S1x10 : Shape := ⟨2, ![1, 10]⟩
abbrev S4096x6 : Shape := ⟨2, ![4096, 6]⟩
abbrev S1x6 : Shape := ⟨2, ![1, 6]⟩
abbrev S4096x2 : Shape := ⟨2, ![4096, 2]⟩
abbrev S4096 : Shape := ⟨1, ![4096]⟩
abbrev S1x1 : Shape := ⟨2, ![1, 1]⟩

abbrev nBuf : Space → Nat
  | .hbm => 16
  | .vmem => 18
  | .smem => 0
  | _ => 0

abbrev bufTy : (tb : Table) → Fin (tcTables nBuf tb) → BufTy
  | .hbm, ⟨0, _⟩ => ⟨S1048576x30, .f32⟩
  | .hbm, ⟨1, _⟩ => ⟨S24x30, .f32⟩
  | .hbm, ⟨2, _⟩ => ⟨S24, .f32⟩
  | .hbm, ⟨3, _⟩ => ⟨S19x24, .f32⟩
  | .hbm, ⟨4, _⟩ => ⟨S19, .f32⟩
  | .hbm, ⟨5, _⟩ => ⟨S14x19, .f32⟩
  | .hbm, ⟨6, _⟩ => ⟨S14, .f32⟩
  | .hbm, ⟨7, _⟩ => ⟨S10x14, .f32⟩
  | .hbm, ⟨8, _⟩ => ⟨S10, .f32⟩
  | .hbm, ⟨9, _⟩ => ⟨S6x10, .f32⟩
  | .hbm, ⟨10, _⟩ => ⟨S6, .f32⟩
  | .hbm, ⟨11, _⟩ => ⟨S2x6, .f32⟩
  | .hbm, ⟨12, _⟩ => ⟨S2, .f32⟩
  | .hbm, ⟨13, _⟩ => ⟨S1x2, .f32⟩
  | .hbm, ⟨14, _⟩ => ⟨S1, .f32⟩
  | .hbm, ⟨15, _⟩ => ⟨S1048576x1, .f32⟩
  | .local _ .vmem, ⟨0, _⟩ => ⟨S4096x30, .f32⟩
  | .local _ .vmem, ⟨1, _⟩ => ⟨S4096x30, .f32⟩
  | .local _ .vmem, ⟨2, _⟩ => ⟨S24x30, .f32⟩
  | .local _ .vmem, ⟨3, _⟩ => ⟨S24, .f32⟩
  | .local _ .vmem, ⟨4, _⟩ => ⟨S19x24, .f32⟩
  | .local _ .vmem, ⟨5, _⟩ => ⟨S19, .f32⟩
  | .local _ .vmem, ⟨6, _⟩ => ⟨S14x19, .f32⟩
  | .local _ .vmem, ⟨7, _⟩ => ⟨S14, .f32⟩
  | .local _ .vmem, ⟨8, _⟩ => ⟨S10x14, .f32⟩
  | .local _ .vmem, ⟨9, _⟩ => ⟨S10, .f32⟩
  | .local _ .vmem, ⟨10, _⟩ => ⟨S6x10, .f32⟩
  | .local _ .vmem, ⟨11, _⟩ => ⟨S6, .f32⟩
  | .local _ .vmem, ⟨12, _⟩ => ⟨S2x6, .f32⟩
  | .local _ .vmem, ⟨13, _⟩ => ⟨S2, .f32⟩
  | .local _ .vmem, ⟨14, _⟩ => ⟨S1x2, .f32⟩
  | .local _ .vmem, ⟨15, _⟩ => ⟨S1, .f32⟩
  | .local _ .vmem, ⟨16, _⟩ => ⟨S4096x1, .f32⟩
  | .local _ .vmem, ⟨17, _⟩ => ⟨S4096x1, .f32⟩
  | _, _ => ⟨S1048576x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S24x30 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S19x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S19 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S14x19 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S14 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10x14 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S6x10 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S6 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x6 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S4096x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  inb_S4096x30_S4096x30_0_0 : ∀ a, (![0, 0] : Fin 2 → Nat) a + S4096x30.size a ≤ S4096x30.size a
  h_S4096x30 : 0 < S4096x30.numel
  bitsLt_bf16_f32 : FTy.bits .bf16 < FTy.bits .f32
  inb_S24x30_S24x30_0_0 : ∀ a, (![0, 0] : Fin 2 → Nat) a + S24x30.size a ≤ S24x30.size a
  h_S24x30 : 0 < S24x30.numel
  inb_S24_S24_0 : ∀ a, (![0] : Fin 1 → Nat) a + S24.size a ≤ S24.size a
  h_S24 : 0 < S24.numel
  shapeCasts_S24_S1x24 : S24.ShapeCasts S1x24
  broadcasts_S1x24_S4096x24 : S1x24.Broadcasts S4096x24
  inb_S19x24_S19x24_0_0 : ∀ a, (![0, 0] : Fin 2 → Nat) a + S19x24.size a ≤ S19x24.size a
  h_S19x24 : 0 < S19x24.numel
  inb_S19_S19_0 : ∀ a, (![0] : Fin 1 → Nat) a + S19.size a ≤ S19.size a
  h_S19 : 0 < S19.numel
  shapeCasts_S19_S1x19 : S19.ShapeCasts S1x19
  broadcasts_S1x19_S4096x19 : S1x19.Broadcasts S4096x19
  inb_S14x19_S14x19_0_0 : ∀ a, (![0, 0] : Fin 2 → Nat) a + S14x19.size a ≤ S14x19.size a
  h_S14x19 : 0 < S14x19.numel
  inb_S14_S14_0 : ∀ a, (![0] : Fin 1 → Nat) a + S14.size a ≤ S14.size a
  h_S14 : 0 < S14.numel
  shapeCasts_S14_S1x14 : S14.ShapeCasts S1x14
  broadcasts_S1x14_S4096x14 : S1x14.Broadcasts S4096x14
  inb_S10x14_S10x14_0_0 : ∀ a, (![0, 0] : Fin 2 → Nat) a + S10x14.size a ≤ S10x14.size a
  h_S10x14 : 0 < S10x14.numel
  inb_S10_S10_0 : ∀ a, (![0] : Fin 1 → Nat) a + S10.size a ≤ S10.size a
  h_S10 : 0 < S10.numel
  shapeCasts_S10_S1x10 : S10.ShapeCasts S1x10
  broadcasts_S1x10_S4096x10 : S1x10.Broadcasts S4096x10
  inb_S6x10_S6x10_0_0 : ∀ a, (![0, 0] : Fin 2 → Nat) a + S6x10.size a ≤ S6x10.size a
  h_S6x10 : 0 < S6x10.numel
  inb_S6_S6_0 : ∀ a, (![0] : Fin 1 → Nat) a + S6.size a ≤ S6.size a
  h_S6 : 0 < S6.numel
  shapeCasts_S6_S1x6 : S6.ShapeCasts S1x6
  broadcasts_S1x6_S4096x6 : S1x6.Broadcasts S4096x6
  inb_S2x6_S2x6_0_0 : ∀ a, (![0, 0] : Fin 2 → Nat) a + S2x6.size a ≤ S2x6.size a
  h_S2x6 : 0 < S2x6.numel
  inb_S2_S2_0 : ∀ a, (![0] : Fin 1 → Nat) a + S2.size a ≤ S2.size a
  h_S2 : 0 < S2.numel
  shapeCasts_S2_S1x2 : S2.ShapeCasts S1x2
  broadcasts_S1x2_S4096x2 : S1x2.Broadcasts S4096x2
  inb_S1x2_S1x2_0_0 : ∀ a, (![0, 0] : Fin 2 → Nat) a + S1x2.size a ≤ S1x2.size a
  h_S1x2 : 0 < S1x2.numel
  inb_S1_S1_0 : ∀ a, (![0] : Fin 1 → Nat) a + S1.size a ≤ S1.size a
  h_S1 : 0 < S1.numel
  reduces_S4096x2_S4096 : S4096x2.Reduces [1] S4096
  shapeCasts_S4096_S4096x1 : S4096.ShapeCasts S4096x1
  shapeCasts_S1_S1x1 : S1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  dot_S4096x30_S24x30_S4096x24_1_1_0_0_n_n_wf : DotDims.WF S4096x30 S24x30 S4096x24 [1] [1] [0] [0] [] []
  dot_S4096x24_S19x24_S4096x19_1_1_0_0_n_n_wf : DotDims.WF S4096x24 S19x24 S4096x19 [1] [1] [0] [0] [] []
  dot_S4096x19_S14x19_S4096x14_1_1_0_0_n_n_wf : DotDims.WF S4096x19 S14x19 S4096x14 [1] [1] [0] [0] [] []
  dot_S4096x14_S10x14_S4096x10_1_1_0_0_n_n_wf : DotDims.WF S4096x14 S10x14 S4096x10 [1] [1] [0] [0] [] []
  dot_S4096x10_S6x10_S4096x6_1_1_0_0_n_n_wf : DotDims.WF S4096x10 S6x10 S4096x6 [1] [1] [0] [0] [] []
  dot_S4096x6_S2x6_S4096x2_1_1_0_0_n_n_wf : DotDims.WF S4096x6 S2x6 S4096x2 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x30.size a ≤ S1048576x30.size a
  hwx0_0 : ∀ i : grid0.Coords, EltTy.bits .f32 = 32 ∨ (Rect.block (s := S1048576x30) S4096x30.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S24x30.size a ≤ S24x30.size a
  hwx0_1 : ∀ i : grid0.Coords, EltTy.bits .f32 = 32 ∨ (Rect.block (s := S24x30) S24x30.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S24.size a ≤ S24.size a
  hwx0_2 : ∀ i : grid0.Coords, EltTy.bits .f32 = 32 ∨ (Rect.block (s := S24) S24.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S19x24.size a ≤ S19x24.size a
  hwx0_3 : ∀ i : grid0.Coords, EltTy.bits .f32 = 32 ∨ (Rect.block (s := S19x24) S19x24.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S19.size a ≤ S19.size a
  hwx0_4 : ∀ i : grid0.Coords, EltTy.bits .f32 = 32 ∨ (Rect.block (s := S19) S19.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S14x19.size a ≤ S14x19.size a
  hwx0_5 : ∀ i : grid0.Coords, EltTy.bits .f32 = 32 ∨ (Rect.block (s := S14x19) S14x19.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S14.size a ≤ S14.size a
  hwx0_6 : ∀ i : grid0.Coords, EltTy.bits .f32 = 32 ∨ (Rect.block (s := S14) S14.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S10x14.size a ≤ S10x14.size a
  hwx0_7 : ∀ i : grid0.Coords, EltTy.bits .f32 = 32 ∨ (Rect.block (s := S10x14) S10x14.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S10.size a ≤ S10.size a
  hwx0_8 : ∀ i : grid0.Coords, EltTy.bits .f32 = 32 ∨ (Rect.block (s := S10) S10.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S6x10.size a ≤ S6x10.size a
  hwx0_9 : ∀ i : grid0.Coords, EltTy.bits .f32 = 32 ∨ (Rect.block (s := S6x10) S6x10.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S6.size a ≤ S6.size a
  hwx0_10 : ∀ i : grid0.Coords, EltTy.bits .f32 = 32 ∨ (Rect.block (s := S6) S6.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2x6.size a ≤ S2x6.size a
  hwx0_11 : ∀ i : grid0.Coords, EltTy.bits .f32 = 32 ∨ (Rect.block (s := S2x6) S2x6.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S2.size a ≤ S2.size a
  hwx0_12 : ∀ i : grid0.Coords, EltTy.bits .f32 = 32 ∨ (Rect.block (s := S2) S2.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x2.size a ≤ S1x2.size a
  hwx0_13 : ∀ i : grid0.Coords, EltTy.bits .f32 = 32 ∨ (Rect.block (s := S1x2) S1x2.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1.size a ≤ S1.size a
  hwx0_14 : ∀ i : grid0.Coords, EltTy.bits .f32 = 32 ∨ (Rect.block (s := S1) S1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S4096x1.size a ≤ S1048576x1.size a
  hwx0_15 : ∀ i : grid0.Coords, EltTy.bits .f32 = 32 ∨ (Rect.block (s := S1048576x1) S4096x1.size (cc0_transform_15 i) (hinb0_15 i)).WholeWords (EltTy.packing .f32)

variable [Facts₀]

def dot_S4096x30_S24x30_S4096x24_1_1_0_0_n_n : DotDims S4096x30 S24x30 S4096x24 where
  lhsContracting := [1]
  rhsContracting := [1]
  lhsNonContracting := [0]
  rhsNonContracting := [0]
  lhsBatch := []
  rhsBatch := []
  wf := dot_S4096x30_S24x30_S4096x24_1_1_0_0_n_n_wf
def dot_S4096x24_S19x24_S4096x19_1_1_0_0_n_n : DotDims S4096x24 S19x24 S4096x19 where
  lhsContracting := [1]
  rhsContracting := [1]
  lhsNonContracting := [0]
  rhsNonContracting := [0]
  lhsBatch := []
  rhsBatch := []
  wf := dot_S4096x24_S19x24_S4096x19_1_1_0_0_n_n_wf
def dot_S4096x19_S14x19_S4096x14_1_1_0_0_n_n : DotDims S4096x19 S14x19 S4096x14 where
  lhsContracting := [1]
  rhsContracting := [1]
  lhsNonContracting := [0]
  rhsNonContracting := [0]
  lhsBatch := []
  rhsBatch := []
  wf := dot_S4096x19_S14x19_S4096x14_1_1_0_0_n_n_wf
def dot_S4096x14_S10x14_S4096x10_1_1_0_0_n_n : DotDims S4096x14 S10x14 S4096x10 where
  lhsContracting := [1]
  rhsContracting := [1]
  lhsNonContracting := [0]
  rhsNonContracting := [0]
  lhsBatch := []
  rhsBatch := []
  wf := dot_S4096x14_S10x14_S4096x10_1_1_0_0_n_n_wf
def dot_S4096x10_S6x10_S4096x6_1_1_0_0_n_n : DotDims S4096x10 S6x10 S4096x6 where
  lhsContracting := [1]
  rhsContracting := [1]
  lhsNonContracting := [0]
  rhsNonContracting := [0]
  lhsBatch := []
  rhsBatch := []
  wf := dot_S4096x10_S6x10_S4096x6_1_1_0_0_n_n_wf
def dot_S4096x6_S2x6_S4096x2_1_1_0_0_n_n : DotDims S4096x6 S2x6 S4096x2 where
  lhsContracting := [1]
  rhsContracting := [1]
  lhsNonContracting := [0]
  rhsNonContracting := [0]
  lhsBatch := []
  rhsBatch := []
  wf := dot_S4096x6_S2x6_S4096x2_1_1_0_0_n_n_wf

abbrev win0_0 : Pipeline.Window sig grid0 :=
  Pipeline.Window.ofSpec (Memref.whole main_arg0) S4096x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S24x30.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S24.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S19x24.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S19.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S14x19.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S14.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S10x14.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S10.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S6x10.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S6.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S2x6.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S2.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S1x2.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v0) S4096x1.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S1048576x30 : Shape := ⟨2, ![1048576, 30]⟩
abbrev S24x30 : Shape := ⟨2, ![24, 30]⟩
abbrev S24 : Shape := ⟨1, ![24]⟩
abbrev S19x24 : Shape := ⟨2, ![19, 24]⟩
abbrev S19 : Shape := ⟨1, ![19]⟩
abbrev S14x19 : Shape := ⟨2, ![14, 19]⟩
abbrev S14 : Shape := ⟨1, ![14]⟩
abbrev S10x14 : Shape := ⟨2, ![10, 14]⟩
abbrev S10 : Shape := ⟨1, ![10]⟩
abbrev S6x10 : Shape := ⟨2, ![6, 10]⟩
abbrev S6 : Shape := ⟨1, ![6]⟩
abbrev S2x6 : Shape := ⟨2, ![2, 6]⟩
abbrev S2 : Shape := ⟨1, ![2]⟩
abbrev S1x2 : Shape := ⟨2, ![1, 2]⟩
abbrev S1 : Shape := ⟨1, ![1]⟩
abbrev S30x24 : Shape := ⟨2, ![30, 24]⟩
abbrev S1048576x24 : Shape := ⟨2, ![1048576, 24]⟩
abbrev S1x24 : Shape := ⟨2, ![1, 24]⟩
abbrev S_ : Shape := ⟨0, ![]⟩
abbrev S24x19 : Shape := ⟨2, ![24, 19]⟩
abbrev S1048576x19 : Shape := ⟨2, ![1048576, 19]⟩
abbrev S1x19 : Shape := ⟨2, ![1, 19]⟩
abbrev S19x14 : Shape := ⟨2, ![19, 14]⟩
abbrev S1048576x14 : Shape := ⟨2, ![1048576, 14]⟩
abbrev S1x14 : Shape := ⟨2, ![1, 14]⟩
abbrev S14x10 : Shape := ⟨2, ![14, 10]⟩
abbrev S1048576x10 : Shape := ⟨2, ![1048576, 10]⟩
abbrev S1x10 : Shape := ⟨2, ![1, 10]⟩
abbrev S10x6 : Shape := ⟨2, ![10, 6]⟩
abbrev S1048576x6 : Shape := ⟨2, ![1048576, 6]⟩
abbrev S1x6 : Shape := ⟨2, ![1, 6]⟩
abbrev S6x2 : Shape := ⟨2, ![6, 2]⟩
abbrev S1048576x2 : Shape := ⟨2, ![1048576, 2]⟩
abbrev S2x1 : Shape := ⟨2, ![2, 1]⟩
abbrev S1048576x1 : Shape := ⟨2, ![1048576, 1]⟩
abbrev S1x1 : Shape := ⟨2, ![1, 1]⟩

abbrev nBuf : Space → Nat
  | .hbm => 68
  | .vmem => 0
  | .smem => 0
  | _ => 0

abbrev bufTy : (tb : Table) → Fin (tcTables nBuf tb) → BufTy
  | .hbm, ⟨0, _⟩ => ⟨S1048576x30, .f32⟩
  | .hbm, ⟨1, _⟩ => ⟨S24x30, .f32⟩
  | .hbm, ⟨2, _⟩ => ⟨S24, .f32⟩
  | .hbm, ⟨3, _⟩ => ⟨S19x24, .f32⟩
  | .hbm, ⟨4, _⟩ => ⟨S19, .f32⟩
  | .hbm, ⟨5, _⟩ => ⟨S14x19, .f32⟩
  | .hbm, ⟨6, _⟩ => ⟨S14, .f32⟩
  | .hbm, ⟨7, _⟩ => ⟨S10x14, .f32⟩
  | .hbm, ⟨8, _⟩ => ⟨S10, .f32⟩
  | .hbm, ⟨9, _⟩ => ⟨S6x10, .f32⟩
  | .hbm, ⟨10, _⟩ => ⟨S6, .f32⟩
  | .hbm, ⟨11, _⟩ => ⟨S2x6, .f32⟩
  | .hbm, ⟨12, _⟩ => ⟨S2, .f32⟩
  | .hbm, ⟨13, _⟩ => ⟨S1x2, .f32⟩
  | .hbm, ⟨14, _⟩ => ⟨S1, .f32⟩
  | .hbm, ⟨15, _⟩ => ⟨S30x24, .f32⟩
  | .hbm, ⟨16, _⟩ => ⟨S1048576x24, .f32⟩
  | .hbm, ⟨17, _⟩ => ⟨S1x24, .f32⟩
  | .hbm, ⟨18, _⟩ => ⟨S1048576x24, .f32⟩
  | .hbm, ⟨19, _⟩ => ⟨S1048576x24, .f32⟩
  | .hbm, ⟨20, _⟩ => ⟨S_, .f32⟩
  | .hbm, ⟨21, _⟩ => ⟨S1048576x24, .f32⟩
  | .hbm, ⟨22, _⟩ => ⟨S1048576x24, .f32⟩
  | .hbm, ⟨23, _⟩ => ⟨S24x19, .f32⟩
  | .hbm, ⟨24, _⟩ => ⟨S1048576x19, .f32⟩
  | .hbm, ⟨25, _⟩ => ⟨S1x19, .f32⟩
  | .hbm, ⟨26, _⟩ => ⟨S1048576x19, .f32⟩
  | .hbm, ⟨27, _⟩ => ⟨S1048576x19, .f32⟩
  | .hbm, ⟨28, _⟩ => ⟨S_, .f32⟩
  | .hbm, ⟨29, _⟩ => ⟨S1048576x19, .f32⟩
  | .hbm, ⟨30, _⟩ => ⟨S1048576x19, .f32⟩
  | .hbm, ⟨31, _⟩ => ⟨S19x14, .f32⟩
  | .hbm, ⟨32, _⟩ => ⟨S1048576x14, .f32⟩
  | .hbm, ⟨33, _⟩ => ⟨S1x14, .f32⟩
  | .hbm, ⟨34, _⟩ => ⟨S1048576x14, .f32⟩
  | .hbm, ⟨35, _⟩ => ⟨S1048576x14, .f32⟩
  | .hbm, ⟨36, _⟩ => ⟨S_, .f32⟩
  | .hbm, ⟨37, _⟩ => ⟨S1048576x14, .f32⟩
  | .hbm, ⟨38, _⟩ => ⟨S1048576x14, .f32⟩
  | .hbm, ⟨39, _⟩ => ⟨S14x10, .f32⟩
  | .hbm, ⟨40, _⟩ => ⟨S1048576x10, .f32⟩
  | .hbm, ⟨41, _⟩ => ⟨S1x10, .f32⟩
  | .hbm, ⟨42, _⟩ => ⟨S1048576x10, .f32⟩
  | .hbm, ⟨43, _⟩ => ⟨S1048576x10, .f32⟩
  | .hbm, ⟨44, _⟩ => ⟨S_, .f32⟩
  | .hbm, ⟨45, _⟩ => ⟨S1048576x10, .f32⟩
  | .hbm, ⟨46, _⟩ => ⟨S1048576x10, .f32⟩
  | .hbm, ⟨47, _⟩ => ⟨S10x6, .f32⟩
  | .hbm, ⟨48, _⟩ => ⟨S1048576x6, .f32⟩
  | .hbm, ⟨49, _⟩ => ⟨S1x6, .f32⟩
  | .hbm, ⟨50, _⟩ => ⟨S1048576x6, .f32⟩
  | .hbm, ⟨51, _⟩ => ⟨S1048576x6, .f32⟩
  | .hbm, ⟨52, _⟩ => ⟨S_, .f32⟩
  | .hbm, ⟨53, _⟩ => ⟨S1048576x6, .f32⟩
  | .hbm, ⟨54, _⟩ => ⟨S1048576x6, .f32⟩
  | .hbm, ⟨55, _⟩ => ⟨S6x2, .f32⟩
  | .hbm, ⟨56, _⟩ => ⟨S1048576x2, .f32⟩
  | .hbm, ⟨57, _⟩ => ⟨S1x2, .f32⟩
  | .hbm, ⟨58, _⟩ => ⟨S1048576x2, .f32⟩
  | .hbm, ⟨59, _⟩ => ⟨S1048576x2, .f32⟩
  | .hbm, ⟨60, _⟩ => ⟨S_, .f32⟩
  | .hbm, ⟨61, _⟩ => ⟨S1048576x2, .f32⟩
  | .hbm, ⟨62, _⟩ => ⟨S1048576x2, .f32⟩
  | .hbm, ⟨63, _⟩ => ⟨S2x1, .f32⟩
  | .hbm, ⟨64, _⟩ => ⟨S1048576x1, .f32⟩
  | .hbm, ⟨65, _⟩ => ⟨S1x1, .f32⟩
  | .hbm, ⟨66, _⟩ => ⟨S1048576x1, .f32⟩
  | .hbm, ⟨67, _⟩ => ⟨S1048576x1, .f32⟩
  | _, _ => ⟨S1048576x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call0_cst : Ref sig .tc := ⟨.hbm, 20, rfl⟩
abbrev main_call0_v0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_cst : Ref sig .tc := ⟨.hbm, 28, rfl⟩
abbrev main_call1_v0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call2_cst : Ref sig .tc := ⟨.hbm, 36, rfl⟩
abbrev main_call2_v0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call3_cst : Ref sig .tc := ⟨.hbm, 44, rfl⟩
abbrev main_call3_v0 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call4_cst : Ref sig .tc := ⟨.hbm, 52, rfl⟩
abbrev main_call4_v0 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_call5_cst : Ref sig .tc := ⟨.hbm, 60, rfl⟩
abbrev main_call5_v0 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩

abbrev nD : Nat := 1
abbrev τ : Topo := Topo.v7x

variable {F : FTy → Type} [FloatOps F]

class Facts₀ : Prop where
  transposes_S24x30_S30x24_1_0 : S24x30.Transposes [1, 0] S30x24
  bcast_S24_S1x24_1 : S24.BroadcastsInDim S1x24 (![1] : Fin 1 → Fin S1x24.rank)
  bcast_S1x24_S1048576x24_0_1 : S1x24.BroadcastsInDim S1048576x24 (![0, 1] : Fin 2 → Fin S1048576x24.rank)
  bcast_S_S1048576x24 : S_.BroadcastsInDim S1048576x24 (![] : Fin 0 → Fin S1048576x24.rank)
  transposes_S19x24_S24x19_1_0 : S19x24.Transposes [1, 0] S24x19
  bcast_S19_S1x19_1 : S19.BroadcastsInDim S1x19 (![1] : Fin 1 → Fin S1x19.rank)
  bcast_S1x19_S1048576x19_0_1 : S1x19.BroadcastsInDim S1048576x19 (![0, 1] : Fin 2 → Fin S1048576x19.rank)
  bcast_S_S1048576x19 : S_.BroadcastsInDim S1048576x19 (![] : Fin 0 → Fin S1048576x19.rank)
  transposes_S14x19_S19x14_1_0 : S14x19.Transposes [1, 0] S19x14
  bcast_S14_S1x14_1 : S14.BroadcastsInDim S1x14 (![1] : Fin 1 → Fin S1x14.rank)
  bcast_S1x14_S1048576x14_0_1 : S1x14.BroadcastsInDim S1048576x14 (![0, 1] : Fin 2 → Fin S1048576x14.rank)
  bcast_S_S1048576x14 : S_.BroadcastsInDim S1048576x14 (![] : Fin 0 → Fin S1048576x14.rank)
  transposes_S10x14_S14x10_1_0 : S10x14.Transposes [1, 0] S14x10
  bcast_S10_S1x10_1 : S10.BroadcastsInDim S1x10 (![1] : Fin 1 → Fin S1x10.rank)
  bcast_S1x10_S1048576x10_0_1 : S1x10.BroadcastsInDim S1048576x10 (![0, 1] : Fin 2 → Fin S1048576x10.rank)
  bcast_S_S1048576x10 : S_.BroadcastsInDim S1048576x10 (![] : Fin 0 → Fin S1048576x10.rank)
  transposes_S6x10_S10x6_1_0 : S6x10.Transposes [1, 0] S10x6
  bcast_S6_S1x6_1 : S6.BroadcastsInDim S1x6 (![1] : Fin 1 → Fin S1x6.rank)
  bcast_S1x6_S1048576x6_0_1 : S1x6.BroadcastsInDim S1048576x6 (![0, 1] : Fin 2 → Fin S1048576x6.rank)
  bcast_S_S1048576x6 : S_.BroadcastsInDim S1048576x6 (![] : Fin 0 → Fin S1048576x6.rank)
  transposes_S2x6_S6x2_1_0 : S2x6.Transposes [1, 0] S6x2
  bcast_S2_S1x2_1 : S2.BroadcastsInDim S1x2 (![1] : Fin 1 → Fin S1x2.rank)
  bcast_S1x2_S1048576x2_0_1 : S1x2.BroadcastsInDim S1048576x2 (![0, 1] : Fin 2 → Fin S1048576x2.rank)
  bcast_S_S1048576x2 : S_.BroadcastsInDim S1048576x2 (![] : Fin 0 → Fin S1048576x2.rank)
  transposes_S1x2_S2x1_1_0 : S1x2.Transposes [1, 0] S2x1
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  dot_S1048576x30_S30x24_S1048576x24_1_0_0_1_n_n_wf : DotDims.WF S1048576x30 S30x24 S1048576x24 [1] [0] [0] [1] [] []
  dot_S1048576x24_S24x19_S1048576x19_1_0_0_1_n_n_wf : DotDims.WF S1048576x24 S24x19 S1048576x19 [1] [0] [0] [1] [] []
  dot_S1048576x19_S19x14_S1048576x14_1_0_0_1_n_n_wf : DotDims.WF S1048576x19 S19x14 S1048576x14 [1] [0] [0] [1] [] []
  dot_S1048576x14_S14x10_S1048576x10_1_0_0_1_n_n_wf : DotDims.WF S1048576x14 S14x10 S1048576x10 [1] [0] [0] [1] [] []
  dot_S1048576x10_S10x6_S1048576x6_1_0_0_1_n_n_wf : DotDims.WF S1048576x10 S10x6 S1048576x6 [1] [0] [0] [1] [] []
  dot_S1048576x6_S6x2_S1048576x2_1_0_0_1_n_n_wf : DotDims.WF S1048576x6 S6x2 S1048576x2 [1] [0] [0] [1] [] []
  dot_S1048576x2_S2x1_S1048576x1_1_0_0_1_n_n_wf : DotDims.WF S1048576x2 S2x1 S1048576x1 [1] [0] [0] [1] [] []

variable [Facts₀]

def dot_S1048576x30_S30x24_S1048576x24_1_0_0_1_n_n : DotDims S1048576x30 S30x24 S1048576x24 where
  lhsContracting := [1]
  rhsContracting := [0]
  lhsNonContracting := [0]
  rhsNonContracting := [1]
  lhsBatch := []
  rhsBatch := []
  wf := dot_S1048576x30_S30x24_S1048576x24_1_0_0_1_n_n_wf
def dot_S1048576x24_S24x19_S1048576x19_1_0_0_1_n_n : DotDims S1048576x24 S24x19 S1048576x19 where
  lhsContracting := [1]
  rhsContracting := [0]
  lhsNonContracting := [0]
  rhsNonContracting := [1]
  lhsBatch := []
  rhsBatch := []
  wf := dot_S1048576x24_S24x19_S1048576x19_1_0_0_1_n_n_wf
def dot_S1048576x19_S19x14_S1048576x14_1_0_0_1_n_n : DotDims S1048576x19 S19x14 S1048576x14 where
  lhsContracting := [1]
  rhsContracting := [0]
  lhsNonContracting := [0]
  rhsNonContracting := [1]
  lhsBatch := []
  rhsBatch := []
  wf := dot_S1048576x19_S19x14_S1048576x14_1_0_0_1_n_n_wf
def dot_S1048576x14_S14x10_S1048576x10_1_0_0_1_n_n : DotDims S1048576x14 S14x10 S1048576x10 where
  lhsContracting := [1]
  rhsContracting := [0]
  lhsNonContracting := [0]
  rhsNonContracting := [1]
  lhsBatch := []
  rhsBatch := []
  wf := dot_S1048576x14_S14x10_S1048576x10_1_0_0_1_n_n_wf
def dot_S1048576x10_S10x6_S1048576x6_1_0_0_1_n_n : DotDims S1048576x10 S10x6 S1048576x6 where
  lhsContracting := [1]
  rhsContracting := [0]
  lhsNonContracting := [0]
  rhsNonContracting := [1]
  lhsBatch := []
  rhsBatch := []
  wf := dot_S1048576x10_S10x6_S1048576x6_1_0_0_1_n_n_wf
def dot_S1048576x6_S6x2_S1048576x2_1_0_0_1_n_n : DotDims S1048576x6 S6x2 S1048576x2 where
  lhsContracting := [1]
  rhsContracting := [0]
  lhsNonContracting := [0]
  rhsNonContracting := [1]
  lhsBatch := []
  rhsBatch := []
  wf := dot_S1048576x6_S6x2_S1048576x2_1_0_0_1_n_n_wf
def dot_S1048576x2_S2x1_S1048576x1_1_0_0_1_n_n : DotDims S1048576x2 S2x1 S1048576x1 where
  lhsContracting := [1]
  rhsContracting := [0]
  lhsNonContracting := [0]
  rhsNonContracting := [1]
  lhsBatch := []
  rhsBatch := []
  wf := dot_S1048576x2_S2x1_S1048576x1_1_0_0_1_n_n_wf

class Facts : Prop extends Facts₀ where

variable [Facts]
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.Mlp.lean ====
/-
  The network as mathematics, on the extended reals: seven affine maps of a row, each of the first six followed by the
  positive part. Both programs compute this function of every row of the input; the two modules that say so state their
  results in these words.
-/
import Idealize.ShloMosaic.Lib.ValueIdx

noncomputable section

open scoped BigOperators

namespace Cert.Mlp

open Idealize.ShloMosaic Idealize.ShloMosaic.ValueIdx

/-- A matrix array read by row and column. -/
abbrev mat {A B : ℕ} (x : (⟨2, ![A, B]⟩ : Shape).Idx → EReal) (a : Fin A) (b : Fin B) : EReal := x (ix2 a b)

/-- A vector array read by position. -/
abbrev vec {A : ℕ} (x : (⟨1, ![A]⟩ : Shape).Idx → EReal) (a : Fin A) : EReal := x (ix1 a)

/-- The affine map h ↦ W h + b of one row: entry j is ∑ₖ hₖ · W j k, plus b j. The weight matrix is stored with one
    row per OUTPUT unit, so the sum runs along a row of W. -/
def affine {K J : ℕ} (W : Fin J → Fin K → EReal) (b : Fin J → EReal) (h : Fin K → EReal) (j : Fin J) : EReal :=
  (∑ k : Fin K, h k * W j k) + b j

/-- A hidden layer: the positive part of the affine map. -/
def hidden {K J : ℕ} (W : Fin J → Fin K → EReal) (b : Fin J → EReal) (h : Fin K → EReal) (j : Fin J) : EReal :=
  max (affine W b h j) 0

/-- The whole network on one row of 30 features: six hidden layers of widths 24, 19, 14, 10, 6, 2 and an affine
    output of width 1. -/
def net (W1 : Fin 24 → Fin 30 → EReal) (b1 : Fin 24 → EReal) (W2 : Fin 19 → Fin 24 → EReal) (b2 : Fin 19 → EReal)
    (W3 : Fin 14 → Fin 19 → EReal) (b3 : Fin 14 → EReal) (W4 : Fin 10 → Fin 14 → EReal) (b4 : Fin 10 → EReal)
    (W5 : Fin 6 → Fin 10 → EReal) (b5 : Fin 6 → EReal) (W6 : Fin 2 → Fin 6 → EReal) (b6 : Fin 2 → EReal)
    (W7 : Fin 1 → Fin 2 → EReal) (b7 : Fin 1 → EReal) (h : Fin 30 → EReal) : EReal :=
  affine W7 b7 (hidden W6 b6 (hidden W5 b5 (hidden W4 b4 (hidden W3 b3 (hidden W2 b2 (hidden W1 b1 h)))))) 0

/-- The result array as ONE function of the fifteen argument arrays: row r of the result is the network of row r of
    the input (the result's second axis has extent one). -/
def G (x : (⟨2, ![1048576, 30]⟩ : Shape).Idx → EReal)
    (W1 : (⟨2, ![24, 30]⟩ : Shape).Idx → EReal) (b1 : (⟨1, ![24]⟩ : Shape).Idx → EReal)
    (W2 : (⟨2, ![19, 24]⟩ : Shape).Idx → EReal) (b2 : (⟨1, ![19]⟩ : Shape).Idx → EReal)
    (W3 : (⟨2, ![14, 19]⟩ : Shape).Idx → EReal) (b3 : (⟨1, ![14]⟩ : Shape).Idx → EReal)
    (W4 : (⟨2, ![10, 14]⟩ : Shape).Idx → EReal) (b4 : (⟨1, ![10]⟩ : Shape).Idx → EReal)
    (W5 : (⟨2, ![6, 10]⟩ : Shape).Idx → EReal) (b5 : (⟨1, ![6]⟩ : Shape).Idx → EReal)
    (W6 : (⟨2, ![2, 6]⟩ : Shape).Idx → EReal) (b6 : (⟨1, ![2]⟩ : Shape).Idx → EReal)
    (W7 : (⟨2, ![1, 2]⟩ : Shape).Idx → EReal) (b7 : (⟨1, ![1]⟩ : Shape).Idx → EReal) :
    (⟨2, ![1048576, 1]⟩ : Shape).Idx → EReal :=
  fun i => net (mat W1) (vec b1) (mat W2) (vec b2) (mat W3) (vec b3) (mat W4) (vec b4) (mat W5) (vec b5) (mat W6) (vec b6)
    (mat W7) (vec b7) (mat x ⟨(i 0).val, idx2_lt0 i⟩)

end Cert.Mlp

end
-- ==== Proof.KernelRow.lean ====
/-
  The kernel body's arithmetic, read one row at a time at the exact instance.

  The body holds a block of 4096 rows and the fourteen weight and bias arrays whole. Each of its six hidden layers is a
  matrix product of the current [4096, K] activations with a [J, K] weight array over their last axes into a zero
  accumulator, plus the bias repeated down the rows, then the maximum with zero; the changes of float format in between
  are the identity here. The output layer multiplies the two remaining columns by the one row of the last weight array,
  sums along the row, and adds the last bias. So row p of the block that the body stores is the network
  (`Cert.Mlp.net`) of row p of the input block.
-/
import proofs.«118701_j50337016709769_2_alg».proof.Proof.Gen.KernelIdeal.Skeleton
import proofs.«118701_j50337016709769_2_alg».proof.Proof.LibDenseRows
import proofs.«118701_j50337016709769_2_alg».proof.Proof.Mlp

noncomputable section

open scoped BigOperators

namespace Cert.KernelIdeal.Rows

open Cert.KernelIdeal Cert.KernelIdeal.Facts₀ Cert.KernelIdeal.Facts
open Idealize.ShloMosaic Idealize.ShloMosaic.ValueIdx Cert.Mlp Cert.DenseRows

/-! ## The layers as the body spells them -/

/-- Hidden layer 1 of the body: [4096, 30] activations against the [24, 30] weights and the [24] bias. -/
def layer1 (h : FVec Ideal S4096x30 .f32) (w : FVec Ideal S24x30 .f32) (b : FVec Ideal S24 .f32) : FVec Ideal S4096x24 .f32 :=
  maximumf (addf (matmul dot_S4096x30_S24x30_S4096x24_1_1_0_0_n_n none (truncf .bf16 h bitsLt_bf16_f32) (truncf .bf16 w bitsLt_bf16_f32)
      (constant S4096x24 .f32 0x00000000#32))
    (broadcastTo S4096x24 (shapeCast S1x24 b shapeCasts_S24_S1x24) broadcasts_S1x24_S4096x24))
    (broadcast S4096x24 (Scalar.ofBits .f32 0x00000000#32))

/-- Hidden layer 2: [4096, 24] activations against the [19, 24] weights and the [19] bias. -/
def layer2 (h : FVec Ideal S4096x24 .f32) (w : FVec Ideal S19x24 .f32) (b : FVec Ideal S19 .f32) : FVec Ideal S4096x19 .f32 :=
  maximumf (addf (matmul dot_S4096x24_S19x24_S4096x19_1_1_0_0_n_n none (truncf .bf16 h bitsLt_bf16_f32) (truncf .bf16 w bitsLt_bf16_f32)
      (constant S4096x19 .f32 0x00000000#32))
    (broadcastTo S4096x19 (shapeCast S1x19 b shapeCasts_S19_S1x19) broadcasts_S1x19_S4096x19))
    (broadcast S4096x19 (Scalar.ofBits .f32 0x00000000#32))

/-- Hidden layer 3: [4096, 19] activations against the [14, 19] weights and the [14] bias. -/
def layer3 (h : FVec Ideal S4096x19 .f32) (w : FVec Ideal S14x19 .f32) (b : FVec Ideal S14 .f32) : FVec Ideal S4096x14 .f32 :=
  maximumf (addf (matmul dot_S4096x19_S14x19_S4096x14_1_1_0_0_n_n none (truncf .bf16 h bitsLt_bf16_f32) (truncf .bf16 w bitsLt_bf16_f32)
      (constant S4096x14 .f32 0x00000000#32))
    (broadcastTo S4096x14 (shapeCast S1x14 b shapeCasts_S14_S1x14) broadcasts_S1x14_S4096x14))
    (broadcast S4096x14 (Scalar.ofBits .f32 0x00000000#32))

/-- Hidden layer 4: [4096, 14] activations against the [10, 14] weights and the [10] bias. -/
def layer4 (h : FVec Ideal S4096x14 .f32) (w : FVec Ideal S10x14 .f32) (b : FVec Ideal S10 .f32) : FVec Ideal S4096x10 .f32 :=
  maximumf (addf (matmul dot_S4096x14_S10x14_S4096x10_1_1_0_0_n_n none (truncf .bf16 h bitsLt_bf16_f32) (truncf .bf16 w bitsLt_bf16_f32)
      (constant S4096x10 .f32 0x00000000#32))
    (broadcastTo S4096x10 (shapeCast S1x10 b shapeCasts_S10_S1x10) broadcasts_S1x10_S4096x10))
    (broadcast S4096x10 (Scalar.ofBits .f32 0x00000000#32))

/-- Hidden layer 5: [4096, 10] activations against the [6, 10] weights and the [6] bias. -/
def layer5 (h : FVec Ideal S4096x10 .f32) (w : FVec Ideal S6x10 .f32) (b : FVec Ideal S6 .f32) : FVec Ideal S4096x6 .f32 :=
  maximumf (addf (matmul dot_S4096x10_S6x10_S4096x6_1_1_0_0_n_n none (truncf .bf16 h bitsLt_bf16_f32) (truncf .bf16 w bitsLt_bf16_f32)
      (constant S4096x6 .f32 0x00000000#32))
    (broadcastTo S4096x6 (shapeCast S1x6 b shapeCasts_S6_S1x6) broadcasts_S1x6_S4096x6))
    (broadcast S4096x6 (Scalar.ofBits .f32 0x00000000#32))

/-- Hidden layer 6: [4096, 6] activations against the [2, 6] weights and the [2] bias. -/
def layer6 (h : FVec Ideal S4096x6 .f32) (w : FVec Ideal S2x6 .f32) (b : FVec Ideal S2 .f32) : FVec Ideal S4096x2 .f32 :=
  maximumf (addf (matmul dot_S4096x6_S2x6_S4096x2_1_1_0_0_n_n none (truncf .bf16 h bitsLt_bf16_f32) (truncf .bf16 w bitsLt_bf16_f32)
      (constant S4096x2 .f32 0x00000000#32))
    (broadcastTo S4096x2 (shapeCast S1x2 b shapeCasts_S2_S1x2) broadcasts_S1x2_S4096x2))
    (broadcast S4096x2 (Scalar.ofBits .f32 0x00000000#32))

/-- The output layer of the body: the [4096, 2] activations times the one weight row, summed along each row, plus the
    one bias. -/
def outLayer (h : FVec Ideal S4096x2 .f32) (w : FVec Ideal S1x2 .f32) (b : FVec Ideal S1 .f32) : FVec Ideal S4096x1 .f32 :=
  addf (shapeCast S4096x1 (multiReduction .add [1] S4096 (mulf h (broadcastTo S4096x2 w broadcasts_S1x2_S4096x2)) 0x00000000#32
      reduces_S4096x2_S4096 (.inl rfl) rfl) shapeCasts_S4096_S4096x1)
    (broadcastTo S4096x1 (shapeCast S1x1 b shapeCasts_S1_S1x1) broadcasts_S1x1_S4096x1)

/-- The stored value is the seven layers composed: the body's named pieces are exactly these terms. -/
theorem payload_eq (x0 : FVec Ideal S4096x30 .f32) (x1 : FVec Ideal S24x30 .f32) (x2 : FVec Ideal S24 .f32) (x3 : FVec Ideal S19x24 .f32)
    (x4 : FVec Ideal S19 .f32) (x5 : FVec Ideal S14x19 .f32) (x6 : FVec Ideal S14 .f32) (x7 : FVec Ideal S10x14 .f32) (x8 : FVec Ideal S10 .f32)
    (x9 : FVec Ideal S6x10 .f32) (x10 : FVec Ideal S6 .f32) (x11 : FVec Ideal S2x6 .f32) (x12 : FVec Ideal S2 .f32) (x13 : FVec Ideal S1x2 .f32)
    (x14 : FVec Ideal S1 .f32) :
    Gen.k0_pay1 (F := Ideal) (Gen.k0_pay2 x0 x1 x2 x3 x4 x5 x6 x7) (Gen.k0_pay3 x8) x9 x10 x11 x12 x13 x14
      = outLayer (layer6 (layer5 (layer4 (layer3 (layer2 (layer1 x0 x1 x2) x3 x4) x5 x6) x7 x8) x9 x10) x11 x12) x13 x14 := rfl

/-! ## Each layer on one row

  Every hidden layer is the general dense layer of `Cert.DenseRows.denseT_relu_apply` at its own extents (the body's
  dimension record of each product is the one that contracts both operands' last axes), with the change of format in
  front of each operand the identity. -/

theorem layer1_row (h : FVec Ideal S4096x30 .f32) (w : FVec Ideal S24x30 .f32) (b : FVec Ideal S24 .f32) (p : Fin 4096) :
    mat (layer1 h w b) p = hidden (mat w) (vec b) (mat h p) :=
  funext fun j => denseT_relu_apply none (truncf .bf16 h bitsLt_bf16_f32) (truncf .bf16 w bitsLt_bf16_f32) b _ _ p j

theorem layer2_row (h : FVec Ideal S4096x24 .f32) (w : FVec Ideal S19x24 .f32) (b : FVec Ideal S19 .f32) (p : Fin 4096) :
    mat (layer2 h w b) p = hidden (mat w) (vec b) (mat h p) :=
  funext fun j => denseT_relu_apply none (truncf .bf16 h bitsLt_bf16_f32) (truncf .bf16 w bitsLt_bf16_f32) b _ _ p j

theorem layer3_row (h : FVec Ideal S4096x19 .f32) (w : FVec Ideal S14x19 .f32) (b : FVec Ideal S14 .f32) (p : Fin 4096) :
    mat (layer3 h w b) p = hidden (mat w) (vec b) (mat h p) :=
  funext fun j => denseT_relu_apply none (truncf .bf16 h bitsLt_bf16_f32) (truncf .bf16 w bitsLt_bf16_f32) b _ _ p j

theorem layer4_row (h : FVec Ideal S4096x14 .f32) (w : FVec Ideal S10x14 .f32) (b : FVec Ideal S10 .f32) (p : Fin 4096) :
    mat (layer4 h w b) p = hidden (mat w) (vec b) (mat h p) :=
  funext fun j => denseT_relu_apply none (truncf .bf16 h bitsLt_bf16_f32) (truncf .bf16 w bitsLt_bf16_f32) b _ _ p j

theorem layer5_row (h : FVec Ideal S4096x10 .f32) (w : FVec Ideal S6x10 .f32) (b : FVec Ideal S6 .f32) (p : Fin 4096) :
    mat (layer5 h w b) p = hidden (mat w) (vec b) (mat h p) :=
  funext fun j => denseT_relu_apply none (truncf .bf16 h bitsLt_bf16_f32) (truncf .bf16 w bitsLt_bf16_f32) b _ _ p j

theorem layer6_row (h : FVec Ideal S4096x6 .f32) (w : FVec Ideal S2x6 .f32) (b : FVec Ideal S2 .f32) (p : Fin 4096) :
    mat (layer6 h w b) p = hidden (mat w) (vec b) (mat h p) :=
  funext fun j => denseT_relu_apply none (truncf .bf16 h bitsLt_bf16_f32) (truncf .bf16 w bitsLt_bf16_f32) b _ _ p j

/-- Row p of the output is the affine output layer of row p before it. -/
theorem outLayer_row (h : FVec Ideal S4096x2 .f32) (w : FVec Ideal S1x2 .f32) (b : FVec Ideal S1 .f32) (p : Fin 4096) (u : Fin 1) :
    outLayer h w b (ix2 p u) = affine (mat w) (vec b) (mat h p) 0 :=
  rowDot_bias_apply h w b _ _ _ _ _ _ _ p u

/-! ## The stored block, row by row -/

/-- Row p of the block the body stores is the network of row p of the input block, with the weights and biases the
    body loaded. -/
theorem payload_row (x0 : FVec Ideal S4096x30 .f32) (x1 : FVec Ideal S24x30 .f32) (x2 : FVec Ideal S24 .f32) (x3 : FVec Ideal S19x24 .f32)
    (x4 : FVec Ideal S19 .f32) (x5 : FVec Ideal S14x19 .f32) (x6 : FVec Ideal S14 .f32) (x7 : FVec Ideal S10x14 .f32) (x8 : FVec Ideal S10 .f32)
    (x9 : FVec Ideal S6x10 .f32) (x10 : FVec Ideal S6 .f32) (x11 : FVec Ideal S2x6 .f32) (x12 : FVec Ideal S2 .f32) (x13 : FVec Ideal S1x2 .f32)
    (x14 : FVec Ideal S1 .f32) (p : Fin 4096) (u : Fin 1) :
    Gen.k0_pay1 (F := Ideal) (Gen.k0_pay2 x0 x1 x2 x3 x4 x5 x6 x7) (Gen.k0_pay3 x8) x9 x10 x11 x12 x13 x14 (ix2 p u)
      = net (mat x1) (vec x2) (mat x3) (vec x4) (mat x5) (vec x6) (mat x7) (vec x8) (mat x9) (vec x10) (mat x11) (vec x12)
          (mat x13) (vec x14) (mat x0 p) := by
  rw [payload_eq, outLayer_row, layer6_row, layer5_row, layer4_row, layer3_row, layer2_row, layer1_row]
  rfl

end Cert.KernelIdeal.Rows

end
-- ==== Proof.KernelArray.lean ====
/-
  From blocks to the array: what the kernel leaves in its result array after all 256 grid points.

  Grid point t stages rows 4096·t … 4096·t + 4095 of the input and every weight and bias array whole, and writes back
  rows 4096·t … 4096·t + 4095 of the [1048576, 1] result. Row p of what it writes is the network of row p of its input
  block (`Cert.KernelIdeal.Rows.payload_row`), that is of row 4096·t + p of the input: so each written block is the
  matching block of ONE function of the argument arrays, `Cert.Mlp.G`, and the 256 blocks cover the result.
-/
import proofs.«118701_j50337016709769_2_alg».proof.Proof.Gen.KernelIdeal.Value
import proofs.«118701_j50337016709769_2_alg».proof.Proof.KernelRow

noncomputable section

namespace Cert.KernelIdeal.Array

open Cert.KernelIdeal Cert.KernelIdeal.Gen Idealize.ShloMosaic Idealize.ShloMosaic.TcCoe Idealize.SL.Sem
open Idealize.ShloMosaic.ValueIdx Cert.Mlp
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## The index maps, decided over the 256 grid points -/

/-- The input's and the result's block index along the rows is the point's position; along the columns it is 0. -/
theorem idx_rows : ∀ t : Fin cfg0.N, win0_0.index t (0 : Fin 2) = t.val ∧ win0_0.index t (1 : Fin 2) = 0
    ∧ win0_15.index t (0 : Fin 2) = t.val ∧ win0_15.index t (1 : Fin 2) = 0 :=
  (by decide +kernel : ∀ t : Fin grid0.N, _)

/-- Every weight window sits at block (0, 0) at every point. -/
theorem idx_weights : ∀ t : Fin cfg0.N, (win0_1.index t (0 : Fin 2) = 0 ∧ win0_1.index t (1 : Fin 2) = 0)
    ∧ (win0_3.index t (0 : Fin 2) = 0 ∧ win0_3.index t (1 : Fin 2) = 0)
    ∧ (win0_5.index t (0 : Fin 2) = 0 ∧ win0_5.index t (1 : Fin 2) = 0)
    ∧ (win0_7.index t (0 : Fin 2) = 0 ∧ win0_7.index t (1 : Fin 2) = 0)
    ∧ (win0_9.index t (0 : Fin 2) = 0 ∧ win0_9.index t (1 : Fin 2) = 0)
    ∧ (win0_11.index t (0 : Fin 2) = 0 ∧ win0_11.index t (1 : Fin 2) = 0)
    ∧ (win0_13.index t (0 : Fin 2) = 0 ∧ win0_13.index t (1 : Fin 2) = 0) :=
  (by decide +kernel : ∀ t : Fin grid0.N, _)

/-- Every bias window sits at block 0 at every point. -/
theorem idx_biases : ∀ t : Fin cfg0.N, win0_2.index t (0 : Fin 1) = 0 ∧ win0_4.index t (0 : Fin 1) = 0
    ∧ win0_6.index t (0 : Fin 1) = 0 ∧ win0_8.index t (0 : Fin 1) = 0 ∧ win0_10.index t (0 : Fin 1) = 0
    ∧ win0_12.index t (0 : Fin 1) = 0 ∧ win0_14.index t (0 : Fin 1) = 0 :=
  (by decide +kernel : ∀ t : Fin grid0.N, _)

/-! ## The weight and bias blocks are the whole arrays

  A block's element sits at block index × block extent + its coordinate inside the block; here the block index is 0 and
  the block's extents are the array's. -/

theorem blk1 (c : Dev nD) (t : Fin cfg0.N) : iblk m c 1 t = V m c main_arg1 := by
  obtain ⟨⟨e0, e1⟩, -⟩ := idx_weights t
  funext y
  show V m c main_arg1 (((cfg0.win 1).blk t).view.emb y) = V m c main_arg1 y
  refine congrArg (V m c main_arg1) (funext fun a => Fin.ext ?_)
  match a with
  | ⟨0, _⟩ => show win0_1.index t (0 : Fin 2) * 24 + 1 * (y 0).val = (y 0).val; omega
  | ⟨1, _⟩ => show win0_1.index t (1 : Fin 2) * 30 + 1 * (y 1).val = (y 1).val; omega

theorem blk2 (c : Dev nD) (t : Fin cfg0.N) : iblk m c 2 t = V m c main_arg2 := by
  obtain ⟨e0, -⟩ := idx_biases t
  funext y
  show V m c main_arg2 (((cfg0.win 2).blk t).view.emb y) = V m c main_arg2 y
  refine congrArg (V m c main_arg2) (funext fun a => Fin.ext ?_)
  match a with
  | ⟨0, _⟩ => show win0_2.index t (0 : Fin 1) * 24 + 1 * (y 0).val = (y 0).val; omega

theorem blk3 (c : Dev nD) (t : Fin cfg0.N) : iblk m c 3 t = V m c main_arg3 := by
  obtain ⟨-, ⟨e0, e1⟩, -⟩ := idx_weights t
  funext y
  show V m c main_arg3 (((cfg0.win 3).blk t).view.emb y) = V m c main_arg3 y
  refine congrArg (V m c main_arg3) (funext fun a => Fin.ext ?_)
  match a with
  | ⟨0, _⟩ => show win0_3.index t (0 : Fin 2) * 19 + 1 * (y 0).val = (y 0).val; omega
  | ⟨1, _⟩ => show win0_3.index t (1 : Fin 2) * 24 + 1 * (y 1).val = (y 1).val; omega

theorem blk4 (c : Dev nD) (t : Fin cfg0.N) : iblk m c 4 t = V m c main_arg4 := by
  obtain ⟨-, e0, -⟩ := idx_biases t
  funext y
  show V m c main_arg4 (((cfg0.win 4).blk t).view.emb y) = V m c main_arg4 y
  refine congrArg (V m c main_arg4) (funext fun a => Fin.ext ?_)
  match a with
  | ⟨0, _⟩ => show win0_4.index t (0 : Fin 1) * 19 + 1 * (y 0).val = (y 0).val; omega

theorem blk5 (c : Dev nD) (t : Fin cfg0.N) : iblk m c 5 t = V m c main_arg5 := by
  obtain ⟨-, -, ⟨e0, e1⟩, -⟩ := idx_weights t
  funext y
  show V m c main_arg5 (((cfg0.win 5).blk t).view.emb y) = V m c main_arg5 y
  refine congrArg (V m c main_arg5) (funext fun a => Fin.ext ?_)
  match a with
  | ⟨0, _⟩ => show win0_5.index t (0 : Fin 2) * 14 + 1 * (y 0).val = (y 0).val; omega
  | ⟨1, _⟩ => show win0_5.index t (1 : Fin 2) * 19 + 1 * (y 1).val = (y 1).val; omega

theorem blk6 (c : Dev nD) (t : Fin cfg0.N) : iblk m c 6 t = V m c main_arg6 := by
  obtain ⟨-, -, e0, -⟩ := idx_biases t
  funext y
  show V m c main_arg6 (((cfg0.win 6).blk t).view.emb y) = V m c main_arg6 y
  refine congrArg (V m c main_arg6) (funext fun a => Fin.ext ?_)
  match a with
  | ⟨0, _⟩ => show win0_6.index t (0 : Fin 1) * 14 + 1 * (y 0).val = (y 0).val; omega

theorem blk7 (c : Dev nD) (t : Fin cfg0.N) : iblk m c 7 t = V m c main_arg7 := by
  obtain ⟨-, -, -, ⟨e0, e1⟩, -⟩ := idx_weights t
  funext y
  show V m c main_arg7 (((cfg0.win 7).blk t).view.emb y) = V m c main_arg7 y
  refine congrArg (V m c main_arg7) (funext fun a => Fin.ext ?_)
  match a with
  | ⟨0, _⟩ => show win0_7.index t (0 : Fin 2) * 10 + 1 * (y 0).val = (y 0).val; omega
  | ⟨1, _⟩ => show win0_7.index t (1 : Fin 2) * 14 + 1 * (y 1).val = (y 1).val; omega

theorem blk8 (c : Dev nD) (t : Fin cfg0.N) : iblk m c 8 t = V m c main_arg8 := by
  obtain ⟨-, -, -, e0, -⟩ := idx_biases t
  funext y
  show V m c main_arg8 (((cfg0.win 8).blk t).view.emb y) = V m c main_arg8 y
  refine congrArg (V m c main_arg8) (funext fun a => Fin.ext ?_)
  match a with
  | ⟨0, _⟩ => show win0_8.index t (0 : Fin 1) * 10 + 1 * (y 0).val = (y 0).val; omega

theorem blk9 (c : Dev nD) (t : Fin cfg0.N) : iblk m c 9 t = V m c main_arg9 := by
  obtain ⟨-, -, -, -, ⟨e0, e1⟩, -⟩ := idx_weights t
  funext y
  show V m c main_arg9 (((cfg0.win 9).blk t).view.emb y) = V m c main_arg9 y
  refine congrArg (V m c main_arg9) (funext fun a => Fin.ext ?_)
  match a with
  | ⟨0, _⟩ => show win0_9.index t (0 : Fin 2) * 6 + 1 * (y 0).val = (y 0).val; omega
  | ⟨1, _⟩ => show win0_9.index t (1 : Fin 2) * 10 + 1 * (y 1).val = (y 1).val; omega

theorem blk10 (c : Dev nD) (t : Fin cfg0.N) : iblk m c 10 t = V m c main_arg10 := by
  obtain ⟨-, -, -, -, e0, -⟩ := idx_biases t
  funext y
  show V m c main_arg10 (((cfg0.win 10).blk t).view.emb y) = V m c main_arg10 y
  refine congrArg (V m c main_arg10) (funext fun a => Fin.ext ?_)
  match a with
  | ⟨0, _⟩ => show win0_10.index t (0 : Fin 1) * 6 + 1 * (y 0).val = (y 0).val; omega

theorem blk11 (c : Dev nD) (t : Fin cfg0.N) : iblk m c 11 t = V m c main_arg11 := by
  obtain ⟨-, -, -, -, -, ⟨e0, e1⟩, -⟩ := idx_weights t
  funext y
  show V m c main_arg11 (((cfg0.win 11).blk t).view.emb y) = V m c main_arg11 y
  refine congrArg (V m c main_arg11) (funext fun a => Fin.ext ?_)
  match a with
  | ⟨0, _⟩ => show win0_11.index t (0 : Fin 2) * 2 + 1 * (y 0).val = (y 0).val; omega
  | ⟨1, _⟩ => show win0_11.index t (1 : Fin 2) * 6 + 1 * (y 1).val = (y 1).val; omega

theorem blk12 (c : Dev nD) (t : Fin cfg0.N) : iblk m c 12 t = V m c main_arg12 := by
  obtain ⟨-, -, -, -, -, e0, -⟩ := idx_biases t
  funext y
  show V m c main_arg12 (((cfg0.win 12).blk t).view.emb y) = V m c main_arg12 y
  refine congrArg (V m c main_arg12) (funext fun a => Fin.ext ?_)
  match a with
  | ⟨0, _⟩ => show win0_12.index t (0 : Fin 1) * 2 + 1 * (y 0).val = (y 0).val; omega

theorem blk13 (c : Dev nD) (t : Fin cfg0.N) : iblk m c 13 t = V m c main_arg13 := by
  obtain ⟨-, -, -, -, -, -, e0, e1⟩ := idx_weights t
  funext y
  show V m c main_arg13 (((cfg0.win 13).blk t).view.emb y) = V m c main_arg13 y
  refine congrArg (V m c main_arg13) (funext fun a => Fin.ext ?_)
  match a with
  | ⟨0, _⟩ => show win0_13.index t (0 : Fin 2) * 1 + 1 * (y 0).val = (y 0).val; omega
  | ⟨1, _⟩ => show win0_13.index t (1 : Fin 2) * 2 + 1 * (y 1).val = (y 1).val; omega

theorem blk14 (c : Dev nD) (t : Fin cfg0.N) : iblk m c 14 t = V m c main_arg14 := by
  obtain ⟨-, -, -, -, -, -, e0⟩ := idx_biases t
  funext y
  show V m c main_arg14 (((cfg0.win 14).blk t).view.emb y) = V m c main_arg14 y
  refine congrArg (V m c main_arg14) (funext fun a => Fin.ext ?_)
  match a with
  | ⟨0, _⟩ => show win0_14.index t (0 : Fin 1) * 1 + 1 * (y 0).val = (y 0).val; omega

/-! ## What a point writes back -/

/-- Row p of the input block at point t is the input's row at the same height as row p of the result block at t:
    both windows move down the rows together, 4096 rows per point. -/
theorem blk0_row (c : Dev nD) (t : Fin cfg0.N) (p : Fin 4096) (u : Fin 1) :
    mat (iblk m c 0 t) p
      = mat (V m c main_arg0) ⟨(((cfg0.win 15).blk t).view.emb (ix2 p u) 0).val, idx2_lt0 (((cfg0.win 15).blk t).view.emb (ix2 p u))⟩ := by
  obtain ⟨e0, e1, e2, e3⟩ := idx_rows t
  funext k
  show V m c main_arg0 (((cfg0.win 0).blk t).view.emb (ix2 p k)) = V m c main_arg0 (ix2 _ k)
  refine congrArg (V m c main_arg0) (funext fun a => Fin.ext ?_)
  match a with
  | ⟨0, _⟩ =>
    show win0_0.index t (0 : Fin 2) * 4096 + 1 * p.val = win0_15.index t (0 : Fin 2) * 4096 + 1 * p.val
    omega
  | ⟨1, _⟩ => show win0_0.index t (1 : Fin 2) * 30 + 1 * k.val = k.val; omega

/-- WHAT POINT t WRITES BACK is block t of the network applied to every row of the input. -/
theorem flushed_eq (c : Dev nD) (t : Fin cfg0.N) :
    (dats m 0 c).flushed 15 t = ((cfg0.win 15).blk t).view.read (Elt Ideal)
      (G (V m c main_arg0) (V m c main_arg1) (V m c main_arg2) (V m c main_arg3) (V m c main_arg4) (V m c main_arg5) (V m c main_arg6)
        (V m c main_arg7) (V m c main_arg8) (V m c main_arg9) (V m c main_arg10) (V m c main_arg11) (V m c main_arg12) (V m c main_arg13)
        (V m c main_arg14)) := by
  rw [Value.flushed15]
  unfold out0_15
  rw [View.canon_unit_zero hz2]
  simp only [View.ld_unit_zero (S := S4096x30) hz2, View.ld_unit_zero (S := S24x30) hz2, View.ld_unit_zero (S := S24) hz1,
    View.ld_unit_zero (S := S19x24) hz2, View.ld_unit_zero (S := S19) hz1, View.ld_unit_zero (S := S14x19) hz2,
    View.ld_unit_zero (S := S14) hz1, View.ld_unit_zero (S := S10x14) hz2, View.ld_unit_zero (S := S10) hz1,
    View.ld_unit_zero (S := S6x10) hz2, View.ld_unit_zero (S := S6) hz1, View.ld_unit_zero (S := S2x6) hz2,
    View.ld_unit_zero (S := S2) hz1, View.ld_unit_zero (S := S1x2) hz2, View.ld_unit_zero (S := S1) hz1]
  refine funext fun (y : S4096x1.Idx) => ?_
  obtain ⟨p, u, rfl⟩ : ∃ (p : Fin 4096) (u : Fin 1), y = ix2 p u := ⟨y 0, y 1, eq_ix2 y⟩
  refine (Rows.payload_row (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t) p u).trans ?_
  rw [blk1 m c t, blk2 m c t, blk3 m c t, blk4 m c t, blk5 m c t, blk6 m c t, blk7 m c t, blk8 m c t, blk9 m c t, blk10 m c t,
    blk11 m c t, blk12 m c t, blk13 m c t, blk14 m c t, blk0_row m c t p u]
  rfl

/-! ## The 256 blocks cover the result -/

/-- An index of the result is in point t's block iff each coordinate is in the block's range on its axis. -/
theorem mem_blk (t : Fin cfg0.N) (i : S1048576x1.Idx) :
    i ∈ ((cfg0.win 15).blk t).view.set ↔ ∀ a : Fin 2, win0_15.index t a * S4096x1.size a ≤ (i a).val
      ∧ (i a).val < win0_15.index t a * S4096x1.size a + S4096x1.size a := by
  show i ∈ ((View.whole main_v0).slice (win0_15.rect t)).set ↔ _
  rw [View.set_slice_whole, Rect.mem_set_unit]
  exact Iff.rfl

/-- Row r of the result is written by point r / 4096. -/
theorem cover (i : S1048576x1.Idx) : ∃ t : Fin cfg0.N, (cfg0.win 15).flush t = true ∧ i ∈ ((cfg0.win 15).blk t).view.set := by
  have hi0 : (i 0).val < 1048576 := (i 0).isLt
  have hi1 : (i 1).val < 1 := (i 1).isLt
  obtain ⟨t, ht⟩ : ∃ t : Fin cfg0.N, t.val = (i 0).val / 4096 :=
    ⟨⟨(i 0).val / 4096, Nat.lt_of_lt_of_eq (by omega : (i 0).val / 4096 < 256) N_0.symm⟩, rfl⟩
  obtain ⟨-, -, e2, e3⟩ := idx_rows t
  refine ⟨t, flush0_15 t, ?_⟩
  rw [mem_blk]
  intro a
  match a with
  | ⟨0, _⟩ =>
    show win0_15.index t (0 : Fin 2) * 4096 ≤ (i 0).val ∧ (i 0).val < win0_15.index t (0 : Fin 2) * 4096 + 4096
    omega
  | ⟨1, _⟩ =>
    show win0_15.index t (1 : Fin 2) * 1 ≤ (i 1).val ∧ (i 1).val < win0_15.index t (1 : Fin 2) * 1 + 1
    omega

/-! ## The array after the run, and the run -/

/-- THE RESULT ARRAY after the run is the network applied to every row of the input. -/
theorem final (c : Dev nD) : (dats m 0 c).arrAt 15 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14)) :=
  (dats m 0 c).arrAt_eq_of_cover 15 _ (fun t _ => flushed_eq m c t) cover

/-- The kernel's run with its result named: every weakly fair execution terminates with the result array at the network
    of every input row and the fifteen arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9)) (m ((c : Thread nD τ).loc main_arg10)) (m ((c : Thread nD τ).loc main_arg11))
            (m ((c : Thread nD τ).loc main_arg12)) (m ((c : Thread nD τ).loc main_arg13)) (m ((c : Thread nD τ).loc main_arg14))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final m c), (h c).2⟩) (Value.run_blocks m ρ)

end Cert.KernelIdeal.Array

end
-- ==== Proof.RefRow.lean ====
/-
  The reference's arithmetic, read one row at a time at the exact instance.

  The reference transposes each weight array and takes the host's matrix product of the current [1048576, K] activations
  with the [K, J] transposed weights, adds the bias repeated down the rows, and takes the maximum with zero (six times),
  then once more without the maximum. Read at an index (the generated read-at-an-index lemmas of the reference's
  operations), row r after each layer is the layer of `Cert.Mlp` applied to row r before it, so row r of the result
  is the network of row r of the input.
-/
import proofs.«118701_j50337016709769_2_alg».proof.Proof.Gen.ReferenceIdeal.Read
import proofs.«118701_j50337016709769_2_alg».proof.Proof.Mlp

noncomputable section

open scoped BigOperators

namespace Cert.ReferenceIdeal.Rows

open Cert.ReferenceIdeal Cert.ReferenceIdeal.Read
open Idealize.ShloMosaic Idealize.ShloMosaic.ValueIdx Cert.Mlp

/-! ## The hidden layers -/

/-- Row r after the first hidden layer. -/
theorem hidden1_row (x0 : FVec Ideal S1048576x30 .f32) (x1 : FVec Ideal S24x30 .f32) (x2 : FVec Ideal S24 .f32) (r : Fin 1048576) :
    mat (val_main_v5 (F := Ideal) x0 x1 x2) r = hidden (mat x1) (vec x2) (mat x0 r) := by
  funext j
  have hl : ∀ k : Fin 30, lidx_main_v1 (ix2 r j) k = ix2 r k := fun k =>
    funext fun a => Fin.ext (by match a with | ⟨0, _⟩ => rfl | ⟨1, _⟩ => rfl)
  have hr : ∀ k : Fin 30, idx_main_v0 (ridx_main_v1 (ix2 r j) k) = ix2 j k := fun k =>
    funext fun a => Fin.ext (by match a with | ⟨0, _⟩ => rfl | ⟨1, _⟩ => rfl)
  have hb : idx_main_v2 (idx_main_v3 (ix2 r j)) = ix1 j :=
    funext fun a => Fin.ext (by match a with | ⟨0, _⟩ => rfl)
  show val_main_v5 (F := Ideal) x0 x1 x2 (ix2 r j) = _
  rw [val_main_v5_apply, val_main_v4_apply, val_main_v1_apply, val_main_v3_apply, val_main_v2_apply, val_main_call0_v0_apply,
    val_main_call0_cst_apply, hb]
  refine congrArg₂ max (congrArg (· + x2 (ix1 j)) (Finset.sum_congr rfl fun k _ => ?_)) Ideal.ofBits_zero_f32
  rw [val_main_v0_apply, hl k, hr k]

/-- Row r after the second hidden layer, from row r after the first. -/
theorem hidden2_row (x0 : FVec Ideal S1048576x30 .f32) (x1 : FVec Ideal S24x30 .f32) (x2 : FVec Ideal S24 .f32) (x3 : FVec Ideal S19x24 .f32)
    (x4 : FVec Ideal S19 .f32) (r : Fin 1048576) :
    mat (val_main_v11 (F := Ideal) x0 x1 x2 x3 x4) r = hidden (mat x3) (vec x4) (mat (val_main_v5 (F := Ideal) x0 x1 x2) r) := by
  funext j
  have hl : ∀ k : Fin 24, lidx_main_v7 (ix2 r j) k = ix2 r k := fun k =>
    funext fun a => Fin.ext (by match a with | ⟨0, _⟩ => rfl | ⟨1, _⟩ => rfl)
  have hr : ∀ k : Fin 24, idx_main_v6 (ridx_main_v7 (ix2 r j) k) = ix2 j k := fun k =>
    funext fun a => Fin.ext (by match a with | ⟨0, _⟩ => rfl | ⟨1, _⟩ => rfl)
  have hb : idx_main_v8 (idx_main_v9 (ix2 r j)) = ix1 j :=
    funext fun a => Fin.ext (by match a with | ⟨0, _⟩ => rfl)
  show val_main_v11 (F := Ideal) x0 x1 x2 x3 x4 (ix2 r j) = _
  rw [val_main_v11_apply, val_main_v10_apply, val_main_v7_apply, val_main_v9_apply, val_main_v8_apply, val_main_call1_v0_apply,
    val_main_call1_cst_apply, hb]
  refine congrArg₂ max (congrArg (· + x4 (ix1 j)) (Finset.sum_congr rfl fun k _ => ?_)) Ideal.ofBits_zero_f32
  rw [val_main_v6_apply, hl k, hr k]

/-- Row r after the third hidden layer, from row r after the second. -/
theorem hidden3_row (x0 : FVec Ideal S1048576x30 .f32) (x1 : FVec Ideal S24x30 .f32) (x2 : FVec Ideal S24 .f32) (x3 : FVec Ideal S19x24 .f32)
    (x4 : FVec Ideal S19 .f32) (x5 : FVec Ideal S14x19 .f32) (x6 : FVec Ideal S14 .f32) (r : Fin 1048576) :
    mat (val_main_v17 (F := Ideal) x0 x1 x2 x3 x4 x5 x6) r
      = hidden (mat x5) (vec x6) (mat (val_main_v11 (F := Ideal) x0 x1 x2 x3 x4) r) := by
  funext j
  have hl : ∀ k : Fin 19, lidx_main_v13 (ix2 r j) k = ix2 r k := fun k =>
    funext fun a => Fin.ext (by match a with | ⟨0, _⟩ => rfl | ⟨1, _⟩ => rfl)
  have hr : ∀ k : Fin 19, idx_main_v12 (ridx_main_v13 (ix2 r j) k) = ix2 j k := fun k =>
    funext fun a => Fin.ext (by match a with | ⟨0, _⟩ => rfl | ⟨1, _⟩ => rfl)
  have hb : idx_main_v14 (idx_main_v15 (ix2 r j)) = ix1 j :=
    funext fun a => Fin.ext (by match a with | ⟨0, _⟩ => rfl)
  show val_main_v17 (F := Ideal) x0 x1 x2 x3 x4 x5 x6 (ix2 r j) = _
  rw [val_main_v17_apply, val_main_v16_apply, val_main_v13_apply, val_main_v15_apply, val_main_v14_apply, val_main_call2_v0_apply,
    val_main_call2_cst_apply, hb]
  refine congrArg₂ max (congrArg (· + x6 (ix1 j)) (Finset.sum_congr rfl fun k _ => ?_)) Ideal.ofBits_zero_f32
  rw [val_main_v12_apply, hl k, hr k]

/-- Row r after the fourth hidden layer, from row r after the third. -/
theorem hidden4_row (x0 : FVec Ideal S1048576x30 .f32) (x1 : FVec Ideal S24x30 .f32) (x2 : FVec Ideal S24 .f32) (x3 : FVec Ideal S19x24 .f32)
    (x4 : FVec Ideal S19 .f32) (x5 : FVec Ideal S14x19 .f32) (x6 : FVec Ideal S14 .f32) (x7 : FVec Ideal S10x14 .f32) (x8 : FVec Ideal S10 .f32)
    (r : Fin 1048576) :
    mat (val_main_v23 (F := Ideal) x0 x1 x2 x3 x4 x5 x6 x7 x8) r
      = hidden (mat x7) (vec x8) (mat (val_main_v17 (F := Ideal) x0 x1 x2 x3 x4 x5 x6) r) := by
  funext j
  have hl : ∀ k : Fin 14, lidx_main_v19 (ix2 r j) k = ix2 r k := fun k =>
    funext fun a => Fin.ext (by match a with | ⟨0, _⟩ => rfl | ⟨1, _⟩ => rfl)
  have hr : ∀ k : Fin 14, idx_main_v18 (ridx_main_v19 (ix2 r j) k) = ix2 j k := fun k =>
    funext fun a => Fin.ext (by match a with | ⟨0, _⟩ => rfl | ⟨1, _⟩ => rfl)
  have hb : idx_main_v20 (idx_main_v21 (ix2 r j)) = ix1 j :=
    funext fun a => Fin.ext (by match a with | ⟨0, _⟩ => rfl)
  show val_main_v23 (F := Ideal) x0 x1 x2 x3 x4 x5 x6 x7 x8 (ix2 r j) = _
  rw [val_main_v23_apply, val_main_v22_apply, val_main_v19_apply, val_main_v21_apply, val_main_v20_apply, val_main_call3_v0_apply,
    val_main_call3_cst_apply, hb]
  refine congrArg₂ max (congrArg (· + x8 (ix1 j)) (Finset.sum_congr rfl fun k _ => ?_)) Ideal.ofBits_zero_f32
  rw [val_main_v18_apply, hl k, hr k]

/-- Row r after the fifth hidden layer, from row r after the fourth. -/
theorem hidden5_row (x0 : FVec Ideal S1048576x30 .f32) (x1 : FVec Ideal S24x30 .f32) (x2 : FVec Ideal S24 .f32) (x3 : FVec Ideal S19x24 .f32)
    (x4 : FVec Ideal S19 .f32) (x5 : FVec Ideal S14x19 .f32) (x6 : FVec Ideal S14 .f32) (x7 : FVec Ideal S10x14 .f32) (x8 : FVec Ideal S10 .f32)
    (x9 : FVec Ideal S6x10 .f32) (x10 : FVec Ideal S6 .f32) (r : Fin 1048576) :
    mat (val_main_v29 (F := Ideal) x0 x1 x2 x3 x4 x5 x6 x7 x8 x9 x10) r
      = hidden (mat x9) (vec x10) (mat (val_main_v23 (F := Ideal) x0 x1 x2 x3 x4 x5 x6 x7 x8) r) := by
  funext j
  have hl : ∀ k : Fin 10, lidx_main_v25 (ix2 r j) k = ix2 r k := fun k =>
    funext fun a => Fin.ext (by match a with | ⟨0, _⟩ => rfl | ⟨1, _⟩ => rfl)
  have hr : ∀ k : Fin 10, idx_main_v24 (ridx_main_v25 (ix2 r j) k) = ix2 j k := fun k =>
    funext fun a => Fin.ext (by match a with | ⟨0, _⟩ => rfl | ⟨1, _⟩ => rfl)
  have hb : idx_main_v26 (idx_main_v27 (ix2 r j)) = ix1 j :=
    funext fun a => Fin.ext (by match a with | ⟨0, _⟩ => rfl)
  show val_main_v29 (F := Ideal) x0 x1 x2 x3 x4 x5 x6 x7 x8 x9 x10 (ix2 r j) = _
  rw [val_main_v29_apply, val_main_v28_apply, val_main_v25_apply, val_main_v27_apply, val_main_v26_apply, val_main_call4_v0_apply,
    val_main_call4_cst_apply, hb]
  refine congrArg₂ max (congrArg (· + x10 (ix1 j)) (Finset.sum_congr rfl fun k _ => ?_)) Ideal.ofBits_zero_f32
  rw [val_main_v24_apply, hl k, hr k]

/-- Row r after the sixth hidden layer, from row r after the fifth. -/
theorem hidden6_row (x0 : FVec Ideal S1048576x30 .f32) (x1 : FVec Ideal S24x30 .f32) (x2 : FVec Ideal S24 .f32) (x3 : FVec Ideal S19x24 .f32)
    (x4 : FVec Ideal S19 .f32) (x5 : FVec Ideal S14x19 .f32) (x6 : FVec Ideal S14 .f32) (x7 : FVec Ideal S10x14 .f32) (x8 : FVec Ideal S10 .f32)
    (x9 : FVec Ideal S6x10 .f32) (x10 : FVec Ideal S6 .f32) (x11 : FVec Ideal S2x6 .f32) (x12 : FVec Ideal S2 .f32) (r : Fin 1048576) :
    mat (val_main_v35 (F := Ideal) x0 x1 x2 x3 x4 x5 x6 x7 x8 x9 x10 x11 x12) r
      = hidden (mat x11) (vec x12) (mat (val_main_v29 (F := Ideal) x0 x1 x2 x3 x4 x5 x6 x7 x8 x9 x10) r) := by
  funext j
  have hl : ∀ k : Fin 6, lidx_main_v31 (ix2 r j) k = ix2 r k := fun k =>
    funext fun a => Fin.ext (by match a with | ⟨0, _⟩ => rfl | ⟨1, _⟩ => rfl)
  have hr : ∀ k : Fin 6, idx_main_v30 (ridx_main_v31 (ix2 r j) k) = ix2 j k := fun k =>
    funext fun a => Fin.ext (by match a with | ⟨0, _⟩ => rfl | ⟨1, _⟩ => rfl)
  have hb : idx_main_v32 (idx_main_v33 (ix2 r j)) = ix1 j :=
    funext fun a => Fin.ext (by match a with | ⟨0, _⟩ => rfl)
  show val_main_v35 (F := Ideal) x0 x1 x2 x3 x4 x5 x6 x7 x8 x9 x10 x11 x12 (ix2 r j) = _
  rw [val_main_v35_apply, val_main_v34_apply, val_main_v31_apply, val_main_v33_apply, val_main_v32_apply, val_main_call5_v0_apply,
    val_main_call5_cst_apply, hb]
  refine congrArg₂ max (congrArg (· + x12 (ix1 j)) (Finset.sum_congr rfl fun k _ => ?_)) Ideal.ofBits_zero_f32
  rw [val_main_v30_apply, hl k, hr k]

/-! ## The output layer and the whole result -/

/-- Row r of the result, from row r after the sixth hidden layer: the affine output layer, with no maximum. -/
theorem output_row (x0 : FVec Ideal S1048576x30 .f32) (x1 : FVec Ideal S24x30 .f32) (x2 : FVec Ideal S24 .f32) (x3 : FVec Ideal S19x24 .f32)
    (x4 : FVec Ideal S19 .f32) (x5 : FVec Ideal S14x19 .f32) (x6 : FVec Ideal S14 .f32) (x7 : FVec Ideal S10x14 .f32) (x8 : FVec Ideal S10 .f32)
    (x9 : FVec Ideal S6x10 .f32) (x10 : FVec Ideal S6 .f32) (x11 : FVec Ideal S2x6 .f32) (x12 : FVec Ideal S2 .f32) (x13 : FVec Ideal S1x2 .f32)
    (x14 : FVec Ideal S1 .f32) (r : Fin 1048576) (u : Fin 1) :
    val_main_v40 (F := Ideal) x0 x1 x2 x3 x4 x5 x6 x7 x8 x9 x10 x11 x12 x13 x14 (ix2 r u)
      = affine (mat x13) (vec x14) (mat (val_main_v35 (F := Ideal) x0 x1 x2 x3 x4 x5 x6 x7 x8 x9 x10 x11 x12) r) 0 := by
  obtain rfl : u = 0 := Subsingleton.elim u 0
  have hl : ∀ k : Fin 2, lidx_main_v37 (ix2 r (0 : Fin 1)) k = ix2 r k := fun k =>
    funext fun a => Fin.ext (by match a with | ⟨0, _⟩ => rfl | ⟨1, _⟩ => rfl)
  have hr : ∀ k : Fin 2, idx_main_v36 (ridx_main_v37 (ix2 r (0 : Fin 1)) k) = ix2 (0 : Fin 1) k := fun k =>
    funext fun a => Fin.ext (by match a with | ⟨0, _⟩ => rfl | ⟨1, _⟩ => rfl)
  have hb : idx_main_v38 (idx_main_v39 (ix2 r (0 : Fin 1))) = ix1 (0 : Fin 1) :=
    funext fun a => Fin.ext (by match a with | ⟨0, _⟩ => rfl)
  rw [val_main_v40_apply, val_main_v37_apply, val_main_v39_apply, val_main_v38_apply, hb]
  refine congrArg (· + x14 (ix1 (0 : Fin 1))) (Finset.sum_congr rfl fun k _ => ?_)
  rw [val_main_v36_apply, hl k, hr k]

/-- The reference's result array is the network applied to every row of the input: `Cert.Mlp.G` of the arguments. -/
theorem result_eq (x0 : FVec Ideal S1048576x30 .f32) (x1 : FVec Ideal S24x30 .f32) (x2 : FVec Ideal S24 .f32) (x3 : FVec Ideal S19x24 .f32)
    (x4 : FVec Ideal S19 .f32) (x5 : FVec Ideal S14x19 .f32) (x6 : FVec Ideal S14 .f32) (x7 : FVec Ideal S10x14 .f32) (x8 : FVec Ideal S10 .f32)
    (x9 : FVec Ideal S6x10 .f32) (x10 : FVec Ideal S6 .f32) (x11 : FVec Ideal S2x6 .f32) (x12 : FVec Ideal S2 .f32) (x13 : FVec Ideal S1x2 .f32)
    (x14 : FVec Ideal S1 .f32) :
    val_main_v40 (F := Ideal) x0 x1 x2 x3 x4 x5 x6 x7 x8 x9 x10 x11 x12 x13 x14 = G x0 x1 x2 x3 x4 x5 x6 x7 x8 x9 x10 x11 x12 x13 x14 := by
  funext i
  obtain ⟨r, u, rfl⟩ : ∃ (r : Fin 1048576) (u : Fin 1), i = ix2 r u := ⟨i 0, i 1, eq_ix2 i⟩
  rw [output_row, hidden6_row, hidden5_row, hidden4_row, hidden3_row, hidden2_row, hidden1_row]
  rfl

end Cert.ReferenceIdeal.Rows

end
-- ==== Proof.lean ====
/-
  A seven-layer perceptron on 1048576 rows of 30 features, as a row-tiled kernel against the plain reference.

  THE KERNEL walks the rows in 256 blocks of 4096. For each block it keeps all fourteen weight and bias arrays whole
  beside it and pushes the block through six hidden layers — a matrix product with the weights over the feature axis
  into a zero accumulator, the bias added to every row, the maximum with zero — and an output layer of width one,
  spelt on the vector unit as: multiply the two remaining columns by the one weight row, sum along the row, add the
  bias. The roundings to a shorter float format between the layers are the identity on the extended reals; the one
  round trip that the idealization removed is the `preserves` conjunct.

  THE REFERENCE applies to the whole input, six times, x ↦ max (x · Wᵀ + b, 0), and once more x ↦ x · Wᵀ + b.

  Both are, row by row, the same function `Cert.Mlp.net` of the row and the fourteen parameter arrays: each layer's
  entry j is ∑ₖ hₖ · W j k + b j (then max with 0), and no law of arithmetic beyond reading both programs' sums as the
  same finite sum over k is needed — neither side regroups or distributes anything, so the finiteness of the inputs is
  never used.
    * `Cert.KernelIdeal.Rows.payload_row`   — the block a grid point stores, row by row, is the network of the input block's rows;
    * `Cert.KernelIdeal.Array.run`          — the 256 stored blocks are the blocks of `Cert.Mlp.G` and cover the result;
    * `Cert.ReferenceIdeal.Rows.result_eq`  — the reference's result is `Cert.Mlp.G` too.
-/
import proofs.«118701_j50337016709769_2_alg».proof.Defs
import proofs.«118701_j50337016709769_2_alg».proof.Proof.Gen.Kernel
import proofs.«118701_j50337016709769_2_alg».proof.Proof.Gen.Kernel.Skeleton
import proofs.«118701_j50337016709769_2_alg».proof.Proof.Gen.Kernel.Launch
import proofs.«118701_j50337016709769_2_alg».proof.Proof.Gen.Kernel.Points
import proofs.«118701_j50337016709769_2_alg».proof.Proof.Gen.Kernel.Frame
import proofs.«118701_j50337016709769_2_alg».proof.Proof.Gen.KernelIdeal
import proofs.«118701_j50337016709769_2_alg».proof.Proof.Gen.KernelIdeal.Skeleton
import proofs.«118701_j50337016709769_2_alg».proof.Proof.Gen.KernelIdeal.Launch
import proofs.«118701_j50337016709769_2_alg».proof.Proof.Gen.KernelIdeal.Points
import proofs.«118701_j50337016709769_2_alg».proof.Proof.Gen.KernelIdeal.Frame
import proofs.«118701_j50337016709769_2_alg».proof.Proof.Gen.ReferenceIdeal
import proofs.«118701_j50337016709769_2_alg».proof.Proof.Gen.KernelIdeal.Value
import proofs.«118701_j50337016709769_2_alg».proof.Proof.Gen.ReferenceIdeal.Run
import proofs.«118701_j50337016709769_2_alg».proof.Proof.Gen.ReferenceIdeal.Read
import proofs.«118701_j50337016709769_2_alg».proof.Proof.Gen.Pre_finite_inputs
import proofs.«118701_j50337016709769_2_alg».proof.Proof.KernelArray
import proofs.«118701_j50337016709769_2_alg».proof.Proof.RefRow
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: widening back what was just narrowed, on the [4096, 2] activations before the
    output layer, is the identity on the extended reals. -/
theorem preserves : Cert.preserves_Kernel_KernelIdeal :=
  IdealRules.truncf_extf.statement _ .f32 .bf16

/-- From memories that agree on the fifteen arguments both programs end with the network of every input row in their
    result: the kernel's 256 blocks assembled (`Array.run`), the reference's host operations read row by row
    (`Rows.result_eq`). -/
theorem algebraic : Cert.algebraic_KernelIdeal_ReferenceIdeal := by
  intro m ρ m' ρ' _ hagree
  refine ⟨_, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14⟩ := hagree c
  rw [Cert.ReferenceIdeal.Read.val_main_v40_eq, Cert.ReferenceIdeal.Rows.result_eq, a0, a1, a2, a3, a4, a5, a6, a7, a8, a9, a10,
    a11, a12, a13, a14]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
